-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536 : Shape := ⟨1, ![65536]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x256 .f32) (main_arg1 : FVec F S65536x256 .f32) (main_arg2 : FVec F S65536 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  main_v13
-- ==== Kernel.lean ====
abbrev S65536x256 : Shape := ⟨2, ![65536, 256]⟩
abbrev S65536 : Shape := ⟨1, ![65536]⟩
abbrev S1x1 : Shape := ⟨2, ![1, 1]⟩
abbrev S4096x256 : Shape := ⟨2, ![4096, 256]⟩
abbrev S256x1 : Shape := ⟨2, ![256, 1]⟩
abbrev S4096x1 : Shape := ⟨2, ![4096, 1]⟩
abbrev S4096 : Shape := ⟨1, ![4096]⟩
abbrev S1x4096 : Shape := ⟨2, ![1, 4096]⟩
abbrev S1x4096x1 : Shape := ⟨3, ![1, 4096, 1]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536, .f32⟩
  | .hbm, ⟨3, _⟩ => ⟨S1x1, .f32⟩
  | .hbm, ⟨4, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S65536, .f32⟩
  | .local _ .vmem, ⟨5, _⟩ => ⟨S1x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let c4096_i32 : BitVec 32 := 4096#32
  let v12 : BitVec 32 := Scalar.muli arg0 c4096_i32
  let v13 : Index := Scalar.indexCast v12
  ![v13.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S65536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S4096x256_S4096x256_0_0 : ∀ a, (![0, 0] : Fin 2 → Nat) a + S4096x256.size a ≤ S4096x256.size a
  h_S4096x256 : 0 < S4096x256.numel
  h_S4096 : 0 < S4096.numel
  shapeCasts_S4096_S1x4096 : S4096.ShapeCasts S1x4096
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S4096x256_S256x1_S4096x1_1_0_0_1_n_n_wf : DotDims.WF S4096x256 S256x1 S4096x1 [1] [0] [0] [1] [] []
  dot_S1x4096_S4096x1_S1x1_1_0_0_1_n_n_wf : DotDims.WF S1x4096 S4096x1 S1x1 [1] [0] [0] [1] [] []
  hrank0 : 0 < grid0.rank
  k0_off1_inb : ∀ i : grid0.Coords, ∀ a, (k0_off1 i) a + S4096.size a ≤ S65536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65536.size a ≤ S65536.size a
  hwx0_2 : ∀ i : grid0.Coords, EltTy.bits .f32 = 32 ∨ (Rect.block (s := S65536) S65536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S65536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536 : Shape := ⟨1, ![65536]⟩
abbrev S65536x1 : Shape := ⟨2, ![65536, 1]⟩
abbrev S72x128 : Shape := ⟨2, ![72, 128]⟩
abbrev S7864x256 : Shape := ⟨2, ![7864, 256]⟩
abbrev S7864x1 : Shape := ⟨2, ![7864, 1]⟩
abbrev S8x128 : Shape := ⟨2, ![8, 128]⟩
abbrev S256x1 : Shape := ⟨2, ![256, 1]⟩
abbrev S1x7864x1 : Shape := ⟨3, ![1, 7864, 1]⟩
abbrev S1 : Shape := ⟨1, ![1]⟩
abbrev S1x1x1 : Shape := ⟨3, ![1, 1, 1]⟩
abbrev S1x1 : Shape := ⟨2, ![1, 1]⟩
abbrev S9x8x128 : Shape := ⟨3, ![9, 8, 128]⟩
abbrev S9x1x1 : Shape := ⟨3, ![9, 1, 1]⟩
abbrev S9 : Shape := ⟨1, ![9]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536, .f32⟩
  | .hbm, ⟨3, _⟩ => ⟨S65536x1, .f32⟩
  | .hbm, ⟨4, _⟩ => ⟨S72x128, .f32⟩
  | .hbm, ⟨5, _⟩ => ⟨S9x8x128, .f32⟩
  | .hbm, ⟨6, _⟩ => ⟨S9x1x1, .f32⟩
  | .hbm, ⟨7, _⟩ => ⟨S9, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S7864x256, .f32⟩
  | .local _ .vmem, ⟨1, _⟩ => ⟨S7864x256, .f32⟩
  | .local _ .vmem, ⟨2, _⟩ => ⟨S7864x256, .f32⟩
  | .local _ .vmem, ⟨3, _⟩ => ⟨S7864x256, .f32⟩
  | .local _ .vmem, ⟨4, _⟩ => ⟨S7864x1, .f32⟩
  | .local _ .vmem, ⟨5, _⟩ => ⟨S7864x1, .f32⟩
  | .local _ .vmem, ⟨6, _⟩ => ⟨S8x128, .f32⟩
  | .local _ .vmem, ⟨7, _⟩ => ⟨S8x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c8_i32 : BitVec 32 := 8#32
  let v19 : BitVec 1 := Scalar.cmpi .eq arg0 c8_i32
  let v20 : BitVec 32 := Scalar.extui v19
  let c0_i32 : BitVec 32 := 0#32
  let v21 : BitVec 1 := Scalar.cmpi .ne v20 c0_i32
  v21

def k0_cond2 (i : grid0.Coords) : BitVec 1 :=
  let arg0 : BitVec 32 := BitVec.ofNat 32 (i 0).val
  let c8_i32 : BitVec 32 := 8#32
  let v19 : BitVec 1 := Scalar.cmpi .eq arg0 c8_i32
  let v_true : BitVec 1 := 1#1
  let v22 : BitVec 1 := Scalar.xori v19 v_true
  let v23 : BitVec 32 := Scalar.extui v22
  let c0_i32_9 : BitVec 32 := 0#32
  let v24 : BitVec 1 := Scalar.cmpi .ne v23 c0_i32_9
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7864x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7864x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7864x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S65536_S65536x1 : S65536.ShapeCasts S65536x1
  inb_S7864x256_S7864x256_0_0 : ∀ a, (![0, 0] : Fin 2 → Nat) a + S7864x256.size a ≤ S7864x256.size a
  h_S7864x256 : 0 < S7864x256.numel
  inb_S7864x1_S7864x1_0_0 : ∀ a, (![0, 0] : Fin 2 → Nat) a + S7864x1.size a ≤ S7864x1.size a
  h_S7864x1 : 0 < S7864x1.numel
  shapeCasts_S7864x1_S7864x1 : S7864x1.ShapeCasts S7864x1
  iota_S7864x1_d0_w32 : S7864x1.Iotas .tc 32 [0]
  shapeCasts_S7864x1_S1x7864x1 : S7864x1.ShapeCasts S1x7864x1
  reduces_S1x7864x1_S1 : S1x7864x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S72x128_S9x8x128 : S72x128.ShapeCasts S9x8x128
  slices_S9x8x128_S9x1x1_0_0_0 : S9x8x128.Slices ![0, 0, 0] S9x1x1
  shapeCasts_S9x1x1_S9 : S9x1x1.ShapeCasts S9
  reducesTo_S9_S_d0 : S9.ReducesTo [0] S_
  h_S_ : 0 < S_.numel
  dot_S7864x256_S256x1_S7864x1_1_0_0_1_n_n_wf : DotDims.WF S7864x256 S256x1 S7864x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S7864x256.size a < S65536x256.size a
  hwx0_0 : ∀ i : grid0.Coords, EltTy.bits .f32 = 32 ∨ (Rect.unit (s := S65536x256) (fun a => cc0_transform_0 i a * S7864x256.size a) (fun a => (Pipeline.Clip.of (cc0_transform_0 i a) (S7864x256.size a) (S65536x256.size a)).extent (S7864x256.size a)) fun a => Pipeline.Clip.inb (Pipeline.Clip.ok_of (hstart0_0 i a))).WholeWords (EltTy.packing .f32)
  hwxs0_0 : ∀ i : grid0.Coords, EltTy.bits .f32 = 32 ∨ (Rect.unit (s := S7864x256) (fun _ => 0) (fun a => (Pipeline.Clip.of (cc0_transform_0 i a) (S7864x256.size a) (S65536x256.size a)).extent (S7864x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S7864x256.size a < S65536x256.size a
  hwx0_1 : ∀ i : grid0.Coords, EltTy.bits .f32 = 32 ∨ (Rect.unit (s := S65536x256) (fun a => cc0_transform_1 i a * S7864x256.size a) (fun a => (Pipeline.Clip.of (cc0_transform_1 i a) (S7864x256.size a) (S65536x256.size a)).extent (S7864x256.size a)) fun a => Pipeline.Clip.inb (Pipeline.Clip.ok_of (hstart0_1 i a))).WholeWords (EltTy.packing .f32)
  hwxs0_1 : ∀ i : grid0.Coords, EltTy.bits .f32 = 32 ∨ (Rect.unit (s := S7864x256) (fun _ => 0) (fun a => (Pipeline.Clip.of (cc0_transform_1 i a) (S7864x256.size a) (S65536x256.size a)).extent (S7864x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S7864x1.size a < S65536x1.size a
  hwx0_2 : ∀ i : grid0.Coords, EltTy.bits .f32 = 32 ∨ (Rect.unit (s := S65536x1) (fun a => cc0_transform_2 i a * S7864x1.size a) (fun a => (Pipeline.Clip.of (cc0_transform_2 i a) (S7864x1.size a) (S65536x1.size a)).extent (S7864x1.size a)) fun a => Pipeline.Clip.inb (Pipeline.Clip.ok_of (hstart0_2 i a))).WholeWords (EltTy.packing .f32)
  hwxs0_2 : ∀ i : grid0.Coords, EltTy.bits .f32 = 32 ∨ (Rect.unit (s := S7864x1) (fun _ => 0) (fun a => (Pipeline.Clip.of (cc0_transform_2 i a) (S7864x1.size a) (S65536x1.size a)).extent (S7864x1.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S72x128.size a
  hwx0_3 : ∀ i : grid0.Coords, EltTy.bits .f32 = 32 ∨ (Rect.block (s := S72x128) S8x128.size (cc0_transform_3 i) (hinb0_3 i)).WholeWords (EltTy.packing .f32)

variable [Facts₀]

def dot_S7864x256_S256x1_S7864x1_1_0_0_1_n_n : DotDims S7864x256 S256x1 S7864x1 where
  lhsContracting := [1]
  rhsContracting := [0]
  lhsNonContracting := [0]
  rhsNonContracting := [1]
  lhsBatch := []
  rhsBatch := []
  wf := dot_S7864x256_S256x1_S7864x1_1_0_0_1_n_n_wf

abbrev win0_0 : Pipeline.Window sig grid0 :=
  Pipeline.Window.ofSpecClip (Memref.whole main_arg0) S7864x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S7864x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S7864x1.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== Proof.KernelValue.lean ====
/-
  The value of the kernel program.

  The kernel walks sixteen grid points. Point `t` holds rows `4096 t .. 4096 t + 4095` of the two embedding
  arrays and the whole label vector, of which it reads entries `4096 t .. 4096 t + 4095`. The `[1,1]` output
  tile is carried from point to point: point 0 stores the zero tile and then the zero tile plus the first
  block's term; every later point stores what it found plus its own block's term; the last point (15) stores,
  after that, the sum scaled by the final factor. The tile is written back to the `[1,1]` result array after
  the last point only, and the one host line after the call reshapes that array to a scalar.

  So the result is the scaled value of a sixteen-step recursion over row blocks of the arguments: `kacc` below,
  stated through the body's three stored terms (the zero tile, one block's step, the scaling) and through the
  row blocks `kblk`, `kyblk` read index by index off the argument arrays.
-/
import proofs.«138735_g2000500922530033_pallasbulk_741_21_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal

set_option maxRecDepth 16384

noncomputable section

namespace Cert.KernelIdeal.KVal

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

/-! ## What each kind of point leaves in the output tile -/

section Pieces

variable {F : FTy → Type} [FloatOps F]

theorem hz2 : (![0, 0] : Fin 2 → Nat) = fun _ => 0 := funext fun a => by fin_cases a <;> rfl

/-- The label slice the body reads at grid coordinates `i`: 4096 consecutive labels from its computed offset. -/
abbrev ysl (i : grid0.Coords) (x2 : Vec F S65536 .f32) : Vec F S4096 .f32 :=
  View.ld x2 (Rect.unit (s := S65536) (k0_off1 i) S4096.size (Facts₀.k0_off1_inb i))

/-- A middle point (1 .. 14) finds the tile at `xo3` and leaves `xo3` plus its block's term: its one store covers
    the tile, and its loads read the whole input buffers and the label slice. -/
theorem out_B (c : Dev nD) (i : grid0.Coords) (a1 : Memref sig .tc .vmem S4096x256 .f32) (h1 : a1.IsWhole)
    (a2 : Memref sig .tc .vmem S4096x256 .f32) (h2 : a2.IsWhole) (a3 : Memref sig .tc .vmem S65536 .f32) (h3 : a3.IsWhole)
    (a4 : Memref sig .tc .vmem S1x1 .f32) (h4 : a4.IsWhole) (hc0 : ¬cond0_0 i) (hc1 : ¬cond0_1 i)
    (x0 x1 : Vec F S4096x256 .f32) (x2 : Vec F S65536 .f32) (xo3 : Vec F S1x1 .f32) :
    out0_B_3 c i a1 h1 a2 h2 a3 h3 a4 h4 hc0 hc1 x0 x1 x2 xo3 = k0_pay2 x0 x1 (ysl i x2) xo3 := by
  unfold out0_B_3
  rw [View.read_writes_eq_canon _ _ _ (cover0_B_3 c i a1 h1 a2 h2 a3 h3 a4 h4 hc0 hc1 x0 x1 x2 xo3)]
  unfold kernelRun0_B
  dsimp only
  sl_unfold_words
  rw [View.canon_unit_zero hz2]
  simp only [View.readAt_eq_ld, h1.read_unread, h2.read_unread, h3.read_unread, h4.read_unread,
    View.ld_unit_zero (S := S4096x256) hz2, View.ld_unit_zero (S := S1x1) hz2]
  rfl

/-- The first point stores the zero tile, reads it back, and leaves the zero tile plus its block's term. -/
theorem out_A (c : Dev nD) (i : grid0.Coords) (a1 : Memref sig .tc .vmem S4096x256 .f32) (h1 : a1.IsWhole)
    (a2 : Memref sig .tc .vmem S4096x256 .f32) (h2 : a2.IsWhole) (a3 : Memref sig .tc .vmem S65536 .f32) (h3 : a3.IsWhole)
    (a4 : Memref sig .tc .vmem S1x1 .f32) (h4 : a4.IsWhole) (hc0 : cond0_0 i) (hc1 : ¬cond0_1 i)
    (x0 x1 : Vec F S4096x256 .f32) (x2 : Vec F S65536 .f32) :
    out0_A_3 c i a1 h1 a2 h2 a3 h3 a4 h4 hc0 hc1 x0 x1 x2 = k0_pay2 x0 x1 (ysl i x2) k0_pay1 := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread,
    View.ld_unit_zero (S := S4096x256) hz2]
  rfl

/-- The last point adds its block's term to what it found, reads the sum back, and leaves it scaled. -/
theorem out_C (c : Dev nD) (i : grid0.Coords) (a1 : Memref sig .tc .vmem S4096x256 .f32) (h1 : a1.IsWhole)
    (a2 : Memref sig .tc .vmem S4096x256 .f32) (h2 : a2.IsWhole) (a3 : Memref sig .tc .vmem S65536 .f32) (h3 : a3.IsWhole)
    (a4 : Memref sig .tc .vmem S1x1 .f32) (h4 : a4.IsWhole) (hc0 : ¬cond0_0 i) (hc1 : cond0_1 i)
    (x0 x1 : Vec F S4096x256 .f32) (x2 : Vec F S65536 .f32) (xo3 : Vec F S1x1 .f32) :
    out0_C_3 c i a1 h1 a2 h2 a3 h3 a4 h4 hc0 hc1 x0 x1 x2 xo3 = k0_pay3 (k0_pay2 x0 x1 (ysl i x2) xo3) := by
  unfold out0_C_3
  rw [View.read_writes_eq_canon _ _ _ (cover0_C_3 c i a1 h1 a2 h2 a3 h3 a4 h4 hc0 hc1 x0 x1 x2 xo3)]
  unfold kernelRun0_C
  dsimp only
  sl_unfold_words
  rw [View.canon_cons_unit_zero (S := S1x1) hz2, View.readCov_unit_zero (S := S1x1) _ hz2]
  simp only [View.readAt_eq_ld, h1.read_unread, h2.read_unread, h3.read_unread, h4.read_unread,
    View.ld_unit_zero (S := S4096x256) hz2, View.ld_unit_zero (S := S1x1) hz2]
  rfl

end Pieces

/-! ## Row blocks of the arguments, and the recursion over them -/

/-- Rows `4096 n ..` of a 65536-row array (the remainder only keeps the row number in range). -/
def kblk (a : S65536x256.Idx → EReal) (n : ℕ) : S4096x256.Idx → EReal :=
  fun j => a (ix2 ⟨(4096 * n + (j 0).val) % 65536, Nat.mod_lt _ (by decide)⟩ (j 1))

/-- Entries `4096 n ..` of the label vector. -/
def kyblk (y : S65536.Idx → EReal) (n : ℕ) : S4096.Idx → EReal :=
  fun j => y (ix1 ⟨(4096 * n + (j 0).val) % 65536, Nat.mod_lt _ (by decide)⟩)

/-- For a block number below 16 the row is `4096 n + r` itself. -/
theorem kblk_apply (a : S65536x256.Idx → EReal) (n : ℕ) (hn : n < 16) (r : Fin 4096) (k : Fin 256) :
    kblk a n (ix2 r k) = a (ix2 ⟨4096 * n + r.val, by have := r.isLt; omega⟩ k) := by
  have e : (4096 * n + r.val) % 65536 = 4096 * n + r.val := Nat.mod_eq_of_lt (by have := r.isLt; omega)
  unfold kblk
  exact congrArg (fun z : Fin 65536 => a (ix2 z k)) (Fin.ext e)

theorem kyblk_apply (y : S65536.Idx → EReal) (n : ℕ) (hn : n < 16) (r : Fin 4096) :
    kyblk y n (ix1 r) = y (ix1 ⟨4096 * n + r.val, by have := r.isLt; omega⟩) := by
  have e : (4096 * n + r.val) % 65536 = 4096 * n + r.val := Nat.mod_eq_of_lt (by have := r.isLt; omega)
  unfold kyblk
  exact congrArg (fun z : Fin 65536 => y (ix1 z)) (Fin.ext e)

/-- The running sum after grid point `n`: the first block's term added to the zero tile, then one block's term per point. -/
def kacc (a0 a1 : S65536x256.Idx → EReal) (y : S65536.Idx → EReal) : ℕ → Vec Ideal S1x1 .f32
  | 0 => k0_pay2 (F := Ideal) (kblk a0 0) (kblk a1 0) (kyblk y 0) (k0_pay1 (F := Ideal))
  | n + 1 => k0_pay2 (F := Ideal) (kblk a0 (n + 1)) (kblk a1 (n + 1)) (kyblk y (n + 1)) (kacc a0 a1 y n)

/-! ## The windows' blocks are those row blocks -/

variable (m : (ℓ : Loc nD τ sig) → Buf (Elt Ideal) ℓ) (ρ : Dev nD → PrngReg)

/-- The one grid axis' coordinate of point `t` is `t`. -/
theorem coords_val : ∀ t : Fin grid0.N, ((grid0.coords t) 0).val = t.val := by decide +kernel

/-- The two embedding windows sit at block row `t`, block column 0. -/
theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)
/-- The label window is the whole vector at every point. -/
theorem idx_2 : ∀ t : Fin cfg0.N, win0_2.index t 0 = 0 :=
  (by decide +kernel : ∀ t : Fin grid0.N, win0_2.index t 0 = 0)

/-- The first embedding window's block at point `t` is rows `4096 t ..` of the first argument. -/
theorem iblk0_eq (c : Dev nD) (t : Fin cfg0.N) :
    (iblk m c 0 t : Vec Ideal S4096x256 .f32) = kblk (m ((c.tc : Thread nD τ).loc main_arg0)) t.val := by
  obtain ⟨h0, h1⟩ := idx_0 t
  have hN : t.val < 16 := lt_of_lt_of_eq t.isLt N_0
  funext j
  have hj0 : (j 0).val < 4096 := idx2_lt0 j
  unfold iblk kblk
  rw [View.read_apply]
  show V m c main_arg0 _ = m (c.tc.loc main_arg0) _
  rw [V_main_arg0]
  congr 1
  funext a
  apply Fin.ext
  match a with
  | ⟨0, _⟩ => show win0_0.index t 0 * 4096 + 1 * (j 0).val = (4096 * t.val + (j 0).val) % 65536; rw [h0]; omega
  | ⟨1, _⟩ => show win0_0.index t 1 * 256 + 1 * (j 1).val = (j 1).val; rw [h1]; omega

/-- The second embedding window's block at point `t` is rows `4096 t ..` of the second argument. -/
theorem iblk1_eq (c : Dev nD) (t : Fin cfg0.N) :
    (iblk m c 1 t : Vec Ideal S4096x256 .f32) = kblk (m ((c.tc : Thread nD τ).loc main_arg1)) t.val := by
  obtain ⟨h0, h1⟩ := idx_1 t
  have hN : t.val < 16 := lt_of_lt_of_eq t.isLt N_0
  funext j
  have hj0 : (j 0).val < 4096 := idx2_lt0 j
  unfold iblk kblk
  rw [View.read_apply]
  show V m c main_arg1 _ = m (c.tc.loc main_arg1) _
  rw [V_main_arg1]
  congr 1
  funext a
  apply Fin.ext
  match a with
  | ⟨0, _⟩ => show win0_1.index t 0 * 4096 + 1 * (j 0).val = (4096 * t.val + (j 0).val) % 65536; rw [h0]; omega
  | ⟨1, _⟩ => show win0_1.index t 1 * 256 + 1 * (j 1).val = (j 1).val; rw [h1]; omega

/-- The label window's block is the whole label vector. -/
theorem iblk2_eq (c : Dev nD) (t : Fin cfg0.N) :
    (iblk m c 2 t : Vec Ideal S65536 .f32) = m ((c.tc : Thread nD τ).loc main_arg2) := by
  have h0 := idx_2 t
  funext j
  unfold iblk
  rw [View.read_apply]
  show V m c main_arg2 _ = m (c.tc.loc main_arg2) _
  rw [V_main_arg2]
  congr 1
  funext a
  apply Fin.ext
  match a with
  | ⟨0, _⟩ => show win0_2.index t 0 * 65536 + 1 * (j 0).val = (j 0).val; rw [h0]; omega

/-- The slice of the labels the body loads at point `t` is entries `4096 t ..`: its offset is `4096 t`. -/
theorem ysl_eq (t : Fin cfg0.N) (y : S65536.Idx → EReal) :
    ysl (F := Ideal) (grid0.coords t) y = kyblk y t.val := by
  have hN : t.val < 16 := lt_of_lt_of_eq t.isLt N_0
  funext j
  have hj0 : (j 0).val < 4096 := (j 0).isLt
  unfold ysl kyblk
  show y _ = y _
  congr 1
  funext a
  apply Fin.ext
  match a with
  | ⟨0, _⟩ =>
    show (k0_off1 (grid0.coords t)) 0 + 1 * (j 0).val = (4096 * t.val + (j 0).val) % 65536
    rw [k0_off1_eq, coords_val t]
    show 4096 * t.val + 1 * (j 0).val = _
    omega

/-! ## The accumulation over the grid, and the result -/

/-- One point's step, over the blocks the windows hold there, is the step over the arguments' rows `4096 t ..`. -/
theorem pay2_at (c : Dev nD) (t : Fin cfg0.N) (acc : Vec Ideal S1x1 .f32) :
    k0_pay2 (F := Ideal) (iblk m c 0 t) (iblk m c 1 t) (ysl (F := Ideal) (grid0.coords t) (iblk m c 2 t)) acc
      = k0_pay2 (F := Ideal) (kblk (m ((c.tc : Thread nD τ).loc main_arg0)) t.val)
          (kblk (m ((c.tc : Thread nD τ).loc main_arg1)) t.val) (kyblk (m ((c.tc : Thread nD τ).loc main_arg2)) t.val) acc := by
  rw [iblk0_eq m c t, iblk1_eq m c t, iblk2_eq m c t, ysl_eq t]

/-- What the output tile holds after point `n < 15` is the running sum: by induction on the point. -/
theorem outsAt_eq (c : Dev nD) : ∀ (n : ℕ) (h : n < cfg0.N), n < 15 →
    outsAt0 m c n h = kacc (m ((c.tc : Thread nD τ).loc main_arg0)) (m ((c.tc : Thread nD τ).loc main_arg1))
      (m ((c.tc : Thread nD τ).loc main_arg2)) n
  | 0, h, _ => by
    rw [outsAt0_A m c ⟨0, h⟩ rfl (by dsimp only; omega)]
    rw [out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) _ _ (iblk m c 0 ⟨0, h⟩) (iblk m c 1 ⟨0, h⟩) (iblk m c 2 ⟨0, h⟩)]
    exact pay2_at m c ⟨0, h⟩ (k0_pay1 (F := Ideal))
  | n + 1, h, hlt => by
    have hN : cfg0.N = 16 := N_0
    have h0 : ¬(⟨n + 1, h⟩ : Fin cfg0.N).val % 16 = 0 := by dsimp only; omega
    have h1 : ¬(⟨n + 1, h⟩ : Fin cfg0.N).val % 16 = 15 := by dsimp only; omega
    rw [outsAt0_B m c ⟨n + 1, h⟩ h0 h1]
    rw [out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) _ _ (iblk m c 0 ⟨n + 1, h⟩) (iblk m c 1 ⟨n + 1, h⟩)
      (iblk m c 2 ⟨n + 1, h⟩) _]
    rw [pay2_at m c ⟨n + 1, h⟩]
    show k0_pay2 (F := Ideal) _ _ _ (outsAt0 m c n _) = k0_pay2 (F := Ideal) _ _ _ (kacc _ _ _ n)
    rw [outsAt_eq c n (Nat.lt_of_succ_lt h) (by omega)]

/-- The tile the kernel leaves: the running sum after the last point, scaled. -/
abbrev result (c : Dev nD) : Buf (Elt Ideal) ((c : Thread nD τ).loc main_v0) :=
  k0_pay3 (F := Ideal) (kacc (m ((c.tc : Thread nD τ).loc main_arg0)) (m ((c.tc : Thread nD τ).loc main_arg1))
    (m ((c.tc : Thread nD τ).loc main_arg2)) 15)

/-- After the last point the output tile holds the scaled sum. -/
theorem outsAt_last (c : Dev nD) (n : ℕ) (h : n < cfg0.N) (hn : n = 15) : outsAt0 m c n h = result m c := by
  subst hn
  rw [outsAt0_C m c ⟨15, h⟩ (by dsimp only; omega) rfl]
  rw [out_C (F := Ideal) c (grid0.coords ⟨15, h⟩) (ms0_0 ⟨15, h⟩) (hs0_0 ⟨15, h⟩) (ms0_1 ⟨15, h⟩) (hs0_1 ⟨15, h⟩)
    (ms0_2 ⟨15, h⟩) (hs0_2 ⟨15, h⟩) (ms0_3 ⟨15, h⟩) (hs0_3 ⟨15, h⟩) _ _ (iblk m c 0 ⟨15, h⟩) (iblk m c 1 ⟨15, h⟩)
    (iblk m c 2 ⟨15, h⟩) _]
  rw [pay2_at m c ⟨15, h⟩]
  show k0_pay3 (F := Ideal) (k0_pay2 (F := Ideal) _ _ _ (outsAt0 m c 14 _)) = k0_pay3 (F := Ideal) (k0_pay2 (F := Ideal) _ _ _ (kacc _ _ _ 14))
  rw [outsAt_eq m c 14 _ (by decide)]

/-- The one write-back, after the last point, writes the scaled sum: the output's one block is the whole `[1,1]` array. -/
theorem flushed_eq (c : Dev nD) (t : Fin cfg0.N) (hf : (cfg0.win 3).flush t = true) :
    (dats m 0 c).flushed 3 t = ((cfg0.win 3).blk t).view.read (Elt Ideal) (result m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3, outsAt_last m c _ _ h15]
  have hz' : (fun a => win0_3.index t0_15 a * main_v0.ty.shape.size a) = fun _ => 0 := funext fun a => by fin_cases a <;> decide
  exact (Memref.read_access_unit_zero (Elt Ideal) main_v0 hz' (fun a => by rw [congrFun hz' a]; simp) (result m c)).symm

/-- So the `[1,1]` result array ends holding the scaled sum. -/
theorem final_o (c : Dev nD) : (dats m 0 c).arrAt 3 cfg0.N = result m c :=
  (dats m 0 c).arrAt_eq_of_cover 3 (result m c) (flushed_eq m c) fun i =>
    ⟨t0_15, (flush0_3 t0_15).mpr rfl, by
      show i ∈ ((View.whole main_v0).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1 from by decide +kernel]; omega⟩

/-- The host line after the call reshapes the `[1,1]` array to a scalar. -/
theorem tail_eq (c : Dev nD) :
    Pipeline.afterTail₀ cfgs (dats m) 0 (V0 m) [hostOps1] c main_v1
      = shapeCast S_ (result m c) Facts₀.shapeCasts_S1x1_S_ := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = result m c :=
    (Pipeline.withArrays_arr spec0 launch0.win.arr_inj c (V0 m c) (fun w => (dats m 0 c).arrAt w cfg0.N) 3).trans (final_o m c)
  rw [e]
  rfl

/-- The scalar shape's one entry of the reshaped array is the array's one entry. -/
theorem shapeCast_scalar (x : S1x1.Idx → EReal) (j : S_.Idx) :
    shapeCast S_ x Facts₀.shapeCasts_S1x1_S_ j = x (ix2 0 0) := by
  obtain rfl : j = ix0 := eq_ix0 j
  exact shapeCast_apply x Facts₀.shapeCasts_S1x1_S_ ix0 (ix2 0 0) (by decide)

/-- THE KERNEL'S VALUE. Every run of the kernel program ends with its scalar result at the scaled running sum of
    the sixteen row blocks, read at the `[1,1]` tile's one entry, and with its three arguments unchanged. -/
theorem run_value :
    θ_run Cert.KernelIdeal.defs (onTc (τ := τ) (main (F := Ideal))) ⟨m, fun _ => 0, ρ⟩ (fun r => ∀ c : Dev nD,
      r.2.mem ((c.tc : Thread nD τ).loc main_v1)
          = (fun _ => k0_pay3 (F := Ideal) (kacc (m ((c.tc : Thread nD τ).loc main_arg0)) (m ((c.tc : Thread nD τ).loc main_arg1))
              (m ((c.tc : Thread nD τ).loc main_arg2)) 15) (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v1 (Pipeline.mem_restRefs_of main_v1 rfl (by decide))).trans
        ((tail_eq m c).trans (funext fun j => shapeCast_scalar (result m c) j)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KVal

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibColumnSum.lean ====
/-
  A column summed after a leading unit axis was added to it.

  A column of N entries, shape [N, 1], recast to [1, N, 1] holds the same N numbers, entry (0, j, 0) being the
  column's entry (j, 0). Summing the recast array over all its entries is therefore the sum over the column's rows;
  and the sum over its two long axes into a one-entry vector, that vector recast to [1, 1, 1] and its entry
  extracted, is the same number. This is how a kernel's whole-block sum with kept dimensions reads on the extended
  reals. No finiteness is needed.
-/
import Idealize.ShloMosaic.PureOps.Ideal.Laws
import Idealize.ShloMosaic.Lib.ValueIdx
import Idealize.ShloMosaic.Lib.Pipeline.Value

noncomputable section

open scoped BigOperators

namespace Cert.LibColumnSum

open Idealize.ShloMosaic Idealize.ShloMosaic.ValueIdx

variable {N : ℕ}

/-- A column given a leading unit axis and summed over all its entries is the sum over its rows. -/
theorem sum_addUnit_col (v : (⟨2, ![N, 1]⟩ : Shape).Idx → EReal)
    (h : (⟨2, ![N, 1]⟩ : Shape).ShapeCasts ⟨3, ![1, N, 1]⟩) :
    ∑ i : (⟨3, ![1, N, 1]⟩ : Shape).Idx, shapeCast ⟨3, ![1, N, 1]⟩ v h i = ∑ j : Fin N, v (ix2 j 0) := by
  let e : (⟨3, ![1, N, 1]⟩ : Shape).Idx ≃ Fin N :=
    { toFun := fun i => i 1
      invFun := fun j => ix3 (0 : Fin 1) j (0 : Fin 1)
      left_inv := fun i => by
        have h0 : i 0 = (0 : Fin 1) := Fin.fin_one_eq_zero (i 0)
        have h2 : i 2 = (0 : Fin 1) := Fin.fin_one_eq_zero (i 2)
        funext a
        match a with
        | ⟨0, _⟩ => exact h0.symm
        | ⟨1, _⟩ => rfl
        | ⟨2, _⟩ => exact h2.symm
      right_inv := fun _ => rfl }
  rw [← Equiv.sum_comp e.symm]
  refine Finset.sum_congr rfl fun j _ => ?_
  show shapeCast ⟨3, ![1, N, 1]⟩ v h (ix3 (0 : Fin 1) j (0 : Fin 1)) = v (ix2 j 0)
  rw [shapeCast_addUnit_apply ![N, 1] v h]
  refine congrArg v (funext fun a => ?_)
  match a with
  | ⟨0, _⟩ => rfl
  | ⟨1, _⟩ => rfl

/-- Such a column summed over its two long axes into one entry, that entry recast to three unit axes and extracted:
    the sum of the column's entries. -/
theorem total_col (u : FVec Ideal ⟨2, ![N, 1]⟩ .f32) (h1 : (⟨2, ![N, 1]⟩ : Shape).ShapeCasts ⟨3, ![1, N, 1]⟩)
    (h2 : (⟨3, ![1, N, 1]⟩ : Shape).Reduces [1, 2] ⟨1, ![1]⟩) (h3 : FKind.Formats .f32)
    (h4 : (0x00000000#32 : BitVec 32) = FKind.add.neutral .f32 h3)
    (h5 : (⟨1, ![1]⟩ : Shape).ShapeCasts ⟨3, ![1, 1, 1]⟩)
    (h6 : ∀ a, (![0, 0, 0] : Fin 3 → Nat) a < (⟨3, ![1, 1, 1]⟩ : Shape).size a) :
    extractAt ![0, 0, 0] (shapeCast ⟨3, ![1, 1, 1]⟩
        (multiReduction (F := Ideal) .add [1, 2] ⟨1, ![1]⟩ (shapeCast ⟨3, ![1, N, 1]⟩ u h1) 0x00000000#32 h2 h3 h4) h5) h6
      = ∑ j : Fin N, u (ix2 j 0) :=
  (Ideal.multiReduction_add_total (shapeCast ⟨3, ![1, N, 1]⟩ u h1) _ h2 (fun b => by fin_cases b; rfl) h3 h4 _).trans
    (sum_addUnit_col u h1)

end Cert.LibColumnSum

end
-- ==== Proof.RowLoss.lean ====
/-
  One row's contribution to the contrastive loss, on the extended reals.

  For two rows a, b of 256 entries the squared distance is  D = Σ_k (a_k - b_k)·(a_k - b_k)·1  (the row of squares
  times a column of ones), the hinge is  H = max(1 - √D, 0)²,  and with a label y the row contributes
  y·D + (1 - y)·H.  Written the other way, as  y·(D - H) + H,  it is the same number whenever y, D and H are reals.
  Also here: the column of squared distances of an N × 256 block read at a row.
-/
import Idealize.ShloMosaic.PureOps.Ideal.Laws
import Idealize.ShloMosaic.Lib.ValueIdx
import Idealize.ShloMosaic.Lib.Pipeline.Value
import proofs.«138735_g2000500922530033_pallasbulk_741_21_alg».proof.Proof.LibMatmul
import proofs.«138735_g2000500922530033_pallasbulk_741_21_alg».proof.Proof.LibColumnSum

noncomputable section

open scoped BigOperators

namespace Cert.RowLoss

open Idealize.ShloMosaic Idealize.ShloMosaic.ValueIdx

export Cert.LibColumnSum (sum_addUnit_col total_col)

/-- The words 1.0 and 0.0 read on the extended reals. -/
def one : EReal := Ideal.ofBits .f32 0x3F800000#32
def zero : EReal := Ideal.ofBits .f32 0x00000000#32

theorem zero_eq : zero = 0 := Ideal.ofBits_zero_f32

theorem one_eq : one = ((1 : ℝ) : EReal) := by
  unfold one; simp [Ideal.ofBits, Ideal.ieee, -EReal.coe_mul]; norm_num

/-- The squared distance of two rows. -/
def rowD (a b : Fin 256 → EReal) : EReal := ∑ k : Fin 256, (a k - b k) * (a k - b k) * one

/-- The squared hinge max(1 - √d, 0)². -/
def hinge (d : EReal) : EReal := max (one - Ideal.sqrt d) zero * max (one - Ideal.sqrt d) zero

/-- A row's loss, label times squared distance plus (1 - label) times hinge. -/
def rowLoss (y d : EReal) : EReal := y * d + (one - y) * hinge d

/-- The same row's loss as the label-weighted difference plus the hinge. -/
def rowLossW (y d : EReal) : EReal := y * (d - hinge d) + hinge d

/-- The squared distance of real rows is a nonnegative real. -/
theorem rowD_real (a b : Fin 256 → EReal) (ha : ∀ k, ∃ r : ℝ, a k = (r : EReal)) (hb : ∀ k, ∃ r : ℝ, b k = (r : EReal)) :
    ∃ r : ℝ, 0 ≤ r ∧ rowD a b = (r : EReal) := by
  choose fa hfa using ha
  choose fb hfb using hb
  refine ⟨∑ k : Fin 256, (fa k - fb k) * (fa k - fb k) * 1, Finset.sum_nonneg fun k _ => by nlinarith [mul_self_nonneg (fa k - fb k)], ?_⟩
  unfold rowD
  rw [one_eq]
  have : ∀ k : Fin 256, (a k - b k) * (a k - b k) * ((1 : ℝ) : EReal) = (((fa k - fb k) * (fa k - fb k) * 1 : ℝ) : EReal) := by
    intro k; rw [hfa k, hfb k, ← EReal.coe_sub, ← EReal.coe_mul, ← EReal.coe_mul]
  simp only [this]
  induction (Finset.univ : Finset (Fin 256)) using Finset.induction_on with
  | empty => simp
  | insert x s hx ih => rw [Finset.sum_insert hx, Finset.sum_insert hx, ih, EReal.coe_add]

/-- The hinge of a nonnegative real is a real. -/
theorem hinge_real (d : ℝ) (hd : 0 ≤ d) : ∃ r : ℝ, hinge (d : EReal) = (r : EReal) := by
  refine ⟨max (1 - Real.sqrt d) 0 * max (1 - Real.sqrt d) 0, ?_⟩
  unfold hinge
  rw [Ideal.sqrt_coe, if_neg (not_lt.mpr hd), one_eq, zero_eq, ← EReal.coe_sub, ← EReal.coe_zero,
    ← (EReal.coe_strictMono.monotone.map_max (a := 1 - Real.sqrt d) (b := 0)), ← EReal.coe_mul]

/-- With a real label, a real squared distance and a real hinge the two ways of writing a row's loss agree. -/
theorem rowLossW_eq (y d : EReal) (hy : ∃ r : ℝ, y = (r : EReal)) (hd : ∃ r : ℝ, d = (r : EReal))
    (hh : ∃ r : ℝ, hinge d = (r : EReal)) : rowLossW y d = rowLoss y d := by
  obtain ⟨y', rfl⟩ := hy
  obtain ⟨d', rfl⟩ := hd
  obtain ⟨h', hh'⟩ := hh
  unfold rowLossW rowLoss
  rw [hh', one_eq, ← EReal.coe_sub, ← EReal.coe_mul, ← EReal.coe_add, ← EReal.coe_sub, ← EReal.coe_mul, ← EReal.coe_mul,
    ← EReal.coe_add]
  congr 1; ring

variable {N : ℕ}

/-- The column of squared distances of the rows of two N × 256 blocks: the block of squared differences times a
    column of ones, into a zero accumulator. -/
def dist2 (v0 v1 : FVec Ideal ⟨2, ![N, 256]⟩ .f32) : FVec Ideal ⟨2, ![N, 1]⟩ .f32 :=
  FloatOps.matmul (DotDims.plain N 256 1) none (mulf (subf v0 v1) (subf v0 v1))
    (broadcast ⟨2, ![256, 1]⟩ (Scalar.ofBits (F := Ideal) .f32 0x3F800000#32)) (constant ⟨2, ![N, 1]⟩ .f32 0x00000000#32)

/-- At row r it is the squared distance of the two blocks' rows r. -/
theorem dist2_apply (v0 v1 : FVec Ideal ⟨2, ![N, 256]⟩ .f32) (r : Fin N) (z : Fin 1) :
    dist2 v0 v1 (ix2 r z) = rowD (fun k => v0 (ix2 r k)) (fun k => v1 (ix2 r k)) := by
  unfold dist2 rowD
  exact matmul_plain_zero_apply N 256 1 none _ _ r z

/-- The column of hinges of a column of squared distances, entry by entry. -/
theorem hingeV_apply (u : FVec Ideal ⟨2, ![N, 1]⟩ .f32) (i : (⟨2, ![N, 1]⟩ : Shape).Idx) :
    mulf (maximumf (subf (broadcast ⟨2, ![N, 1]⟩ (Scalar.ofBits (F := Ideal) .f32 0x3F800000#32)) (sqrt u))
        (broadcast ⟨2, ![N, 1]⟩ (Scalar.ofBits (F := Ideal) .f32 0x00000000#32)))
      (maximumf (subf (broadcast ⟨2, ![N, 1]⟩ (Scalar.ofBits (F := Ideal) .f32 0x3F800000#32)) (sqrt u))
        (broadcast ⟨2, ![N, 1]⟩ (Scalar.ofBits (F := Ideal) .f32 0x00000000#32))) i = hinge (u i) := rfl

end Cert.RowLoss

end
-- ==== Proof.KerPay.lean ====
/-
  The kernel's stored values read at their one entry.

  At a grid point the kernel forms, for its 4096 rows, the squared distances D_k (the block of squared differences
  times a column of ones) and the hinges H_k = max(1 - √D_k, 0)², then adds to the running value the number
  Σ_k y_k·(D_k - H_k) + Σ_k H_k  (a 1 × 4096 by 4096 × 1 product, and the column of hinges summed). The first point
  starts from the zero word; the last point multiplies the running value by the word 0x37000000.
-/
import proofs.«138735_g2000500922530033_pallasbulk_741_21_alg».proof.Proof.Gen.KernelIdeal.Skeleton
import proofs.«138735_g2000500922530033_pallasbulk_741_21_alg».proof.Proof.RowLoss

set_option maxRecDepth 16384

noncomputable section

open scoped BigOperators

namespace Cert.KernelIdeal.KerPay

open Cert.KernelIdeal Cert.KernelIdeal.Gen Cert.RowLoss
open Idealize.ShloMosaic Idealize.ShloMosaic.ValueIdx

/-- The word 0x37000000 read on the extended reals. -/
def scale : EReal := Ideal.ofBits .f32 0x37000000#32

/-- The zero tile. -/
theorem pay1_apply (j : S1x1.Idx) : k0_pay1 (F := Ideal) j = zero := rfl

/-- The last point's scaling. -/
theorem pay3_apply (v : Vec Ideal S1x1 .f32) (j : S1x1.Idx) : k0_pay3 (F := Ideal) v j = v j * scale := by
  unfold k0_pay3
  try dsimp only
  rw [shapeCast_self]
  rfl

/-- The squared distance of row k of a block pair. -/
def bD (v0 v1 : Vec Ideal S4096x256 .f32) (k : Fin 4096) : EReal :=
  rowD (fun c => v0 (ix2 k c)) (fun c => v1 (ix2 k c))

/-- A point's stored value: the running value plus the label-weighted differences plus the hinges. -/
theorem pay2_apply (v0 v1 : Vec Ideal S4096x256 .f32) (v14 : Vec Ideal S4096 .f32) (v27 : Vec Ideal S1x1 .f32) (j : S1x1.Idx) :
    k0_pay2 (F := Ideal) v0 v1 v14 v27 j
      = v27 j + ((∑ k : Fin 4096, v14 (ix1 k) * (bD v0 v1 k - hinge (bD v0 v1 k))) + ∑ k : Fin 4096, hinge (bD v0 v1 k)) := by
  obtain ⟨p, q, rfl⟩ : ∃ (p : Fin 1) (q : Fin 1), j = ix2 p q := ⟨j 0, j 1, eq_ix2 j⟩
  unfold k0_pay2
  try dsimp only
  rw [shapeCast_self]
  show _ + (_ + _) = _
  refine congrArg₂ _ rfl (congrArg₂ _ ?_ ?_)
  · refine (matmul_plain_zero_apply 1 4096 1 none _ _ p q).trans (Finset.sum_congr rfl fun k _ => ?_)
    refine congrArg₂ _ ?_ ?_
    · refine (shapeCast_addUnit_apply ![4096] v14 _ (ix2 p k)).trans (congrArg v14 (funext fun a => ?_))
      match a with
      | ⟨0, _⟩ => rfl
    · show dist2 v0 v1 (ix2 k q) - hinge (dist2 v0 v1 (ix2 k q)) = _
      rw [dist2_apply]
      rfl
  · show extractAt _ _ _ = _
    refine (total_col _ _ _ _ _ _ _).trans (Finset.sum_congr rfl fun k _ => ?_)
    show hinge (dist2 v0 v1 (ix2 k 0)) = _
    rw [dist2_apply]
    rfl

end Cert.KernelIdeal.KerPay

end
-- ==== Proof.LibRangeBlocks.lean ====
/-
  A sum over consecutive blocks, with the terms numbered by naturals.

  The first b·n terms of a sequence in a commutative additive monoid, added block by block — n consecutive blocks
  of b terms, term q of block p being term b·p + q — give the sum of the first b·n terms. No subtraction and no
  cancellation is used, so the law holds on the extended reals with their infinities; it joins a value accumulated
  over a grid of row blocks to one sum over all rows, whatever the block length.
-/
import Mathlib.Algebra.BigOperators.Intervals

open scoped BigOperators

namespace Cert.LibRangeBlocks

/-- A sum over n consecutive blocks of b terms is the sum over the first b·n terms. -/
theorem sum_range_blocks {M : Type*} [AddCommMonoid M] (f : ℕ → M) (b n : ℕ) :
    ∑ p ∈ Finset.range n, ∑ q ∈ Finset.range b, f (b * p + q) = ∑ r ∈ Finset.range (b * n), f r := by
  induction n with
  | zero => simp
  | succ n ih => rw [Finset.sum_range_succ, ih, Nat.mul_succ, Finset.sum_range_add]

end Cert.LibRangeBlocks
-- ==== Proof.LossMath.lean ====
/-
  The two ways of summing the contrastive loss over 65536 rows agree.

  Y r and D r are the label and the squared distance of row r (whatever they are from row 65536 on), L r the row's
  loss below row 65536 and zero from there on. One program adds up, over sixteen consecutive blocks of 4096 rows,
  the label-weighted differences and the hinges of each block; the other adds up, over nine consecutive blocks of
  7864 rows, the losses of the rows below 65536 (the ninth block runs 5240 rows past the end). With real labels and
  real nonnegative squared distances every term is a real, the weighted form of a row's loss is its plain form, and
  both totals are the sum of L over the first 65536 rows.
-/
import proofs.«138735_g2000500922530033_pallasbulk_741_21_alg».proof.Proof.RowLoss
import proofs.«138735_g2000500922530033_pallasbulk_741_21_alg».proof.Proof.LibRangeBlocks

noncomputable section

open scoped BigOperators

namespace Cert.LossMath

open Cert.RowLoss Cert.LibRangeBlocks

variable (Y D : ℕ → EReal)

/-- Row r's loss below row 65536, zero from there on. -/
def L (r : ℕ) : EReal := if r < 65536 then rowLoss (Y r) (D r) else 0

/-- What the first program adds at block n. -/
def kPart (n : ℕ) : EReal :=
  (∑ j : Fin 4096, Y (4096 * n + j.val) * (D (4096 * n + j.val) - hinge (D (4096 * n + j.val))))
    + ∑ j : Fin 4096, hinge (D (4096 * n + j.val))

/-- What the second program stores for block t. -/
def rPart (t : ℕ) : EReal :=
  ∑ j : Fin 7864, if 7864 * t + j.val < 65536 then rowLoss (Y (7864 * t + j.val)) (D (7864 * t + j.val)) else zero

theorem rPart_eq (t : ℕ) : rPart Y D t = ∑ q ∈ Finset.range 7864, L Y D (7864 * t + q) := by
  unfold rPart L
  rw [Finset.sum_range]
  refine Finset.sum_congr rfl fun j _ => ?_
  rw [zero_eq]

theorem kPart_eq (hY : ∀ r < 65536, ∃ y : ℝ, Y r = (y : EReal)) (hD : ∀ r < 65536, ∃ d : ℝ, 0 ≤ d ∧ D r = (d : EReal))
    (n : ℕ) (hn : n < 16) : kPart Y D n = ∑ q ∈ Finset.range 4096, L Y D (4096 * n + q) := by
  unfold kPart
  rw [← Finset.sum_add_distrib, Finset.sum_range]
  refine Finset.sum_congr rfl fun j _ => ?_
  have hr : 4096 * n + j.val < 65536 := by have := j.isLt; omega
  obtain ⟨d, hd0, hd⟩ := hD _ hr
  unfold L
  rw [if_pos hr]
  exact rowLossW_eq _ _ (hY _ hr) ⟨d, hd⟩ (by rw [hd]; exact hinge_real d hd0)

/-- The sixteen block values of the first program and the nine of the second have the same total. -/
theorem totals_eq (hY : ∀ r < 65536, ∃ y : ℝ, Y r = (y : EReal)) (hD : ∀ r < 65536, ∃ d : ℝ, 0 ≤ d ∧ D r = (d : EReal)) :
    ∑ n ∈ Finset.range 16, kPart Y D n = ∑ t ∈ Finset.range 9, rPart Y D t := by
  have hk : ∑ n ∈ Finset.range 16, kPart Y D n = ∑ r ∈ Finset.range (4096 * 16), L Y D r := by
    rw [← sum_range_blocks]
    exact Finset.sum_congr rfl fun n hn => kPart_eq Y D hY hD n (Finset.mem_range.mp hn)
  have hr : ∑ t ∈ Finset.range 9, rPart Y D t = ∑ r ∈ Finset.range (7864 * 9), L Y D r := by
    rw [← sum_range_blocks]
    exact Finset.sum_congr rfl fun t _ => rPart_eq Y D t
  rw [hk, hr, show 7864 * 9 = 4096 * 16 + 5240 from by norm_num, Finset.sum_range_add]
  have hz : ∑ x ∈ Finset.range 5240, L Y D (4096 * 16 + x) = 0 :=
    Finset.sum_eq_zero fun x _ => by unfold L; rw [if_neg (by omega)]
  rw [hz, add_zero]

end Cert.LossMath

end
-- ==== Proof.KerSum.lean ====
/-
  The kernel's running value after each grid point, in closed form.

  The running value starts at the zero word and each point adds its block's label-weighted differences and hinges,
  so after point n it is the zero word plus the sum of the first n + 1 blocks' contributions.
-/
import proofs.«138735_g2000500922530033_pallasbulk_741_21_alg».proof.Proof.KerPay
import proofs.«138735_g2000500922530033_pallasbulk_741_21_alg».proof.Proof.LossMath

set_option maxRecDepth 16384

noncomputable section

open scoped BigOperators

namespace Cert.KernelIdeal.KerSum

open Cert.KernelIdeal Cert.KernelIdeal.Gen Cert.RowLoss Cert.LossMath Cert.KernelIdeal.KerPay
open Idealize.ShloMosaic Idealize.ShloMosaic.ValueIdx

/-- One point's stored value when its blocks hold rows 4096·n … 4096·n + 4095: the running value plus block n's
    contribution. -/
theorem step (Y D : ℕ → EReal) (n : ℕ) (b0 b1 : Vec Ideal S4096x256 .f32) (by_ : Vec Ideal S4096 .f32) (prev : Vec Ideal S1x1 .f32)
    (hy : ∀ k : Fin 4096, by_ (ix1 k) = Y (4096 * n + k.val)) (hd : ∀ k : Fin 4096, bD b0 b1 k = D (4096 * n + k.val))
    (j : S1x1.Idx) : k0_pay2 (F := Ideal) b0 b1 by_ prev j = prev j + kPart Y D n := by
  rw [pay2_apply]
  unfold kPart
  simp only [hy, hd]

/-- Any sequence of running values that follows the kernel's recursion is the zero word plus the blocks' sums. -/
theorem closed (Y D : ℕ → EReal) (acc : ℕ → Vec Ideal S1x1 .f32) (B0 B1 : ℕ → Vec Ideal S4096x256 .f32) (By : ℕ → Vec Ideal S4096 .f32)
    (h0 : acc 0 = k0_pay2 (F := Ideal) (B0 0) (B1 0) (By 0) (k0_pay1 (F := Ideal)))
    (hs : ∀ n, acc (n + 1) = k0_pay2 (F := Ideal) (B0 (n + 1)) (B1 (n + 1)) (By (n + 1)) (acc n))
    (hy : ∀ n (k : Fin 4096), By n (ix1 k) = Y (4096 * n + k.val))
    (hd : ∀ n (k : Fin 4096), bD (B0 n) (B1 n) k = D (4096 * n + k.val)) (j : S1x1.Idx) :
    ∀ n, acc n j = zero + ∑ i ∈ Finset.range (n + 1), kPart Y D i := by
  intro n
  induction n with
  | zero =>
    rw [h0, step Y D 0 _ _ _ _ (hy 0) (hd 0), pay1_apply, Finset.sum_range_one]
  | succ n ih =>
    rw [hs n, step Y D (n + 1) _ _ _ _ (hy (n + 1)) (hd (n + 1)), ih, Finset.sum_range_succ _ (n + 1), add_assoc]

end Cert.KernelIdeal.KerSum

end
-- ==== Proof.RefData.lean ====
/-
  The reference program's launch data.

  The reference cuts the 65536 rows into nine blocks of 7864 rows; the ninth block starts at row 62912 and
  overhangs the arrays by 5240 rows. A fetch of an overhanging block lands only the rows inside the array in
  the staging buffer; the rest of the buffer holds words nothing names. This module fixes what each staging
  buffer is said to hold after the body at each grid point: an input buffer its block filled out with zeros
  past the array's end, the output buffer the stored tile computed from those zero-filled blocks (the masked
  block sum at the last point, the plain block sum at the others).
-/
import proofs.«138735_g2000500922530033_pallasbulk_741_21_alg».proof.Proof.Gen.ReferenceIdeal.Frame
import proofs.«138735_g2000500922530033_pallasbulk_741_21_alg».proof.Proof.Gen.ReferenceIdeal.Skeleton

set_option maxRecDepth 16384

noncomputable section

namespace Cert.ReferenceIdeal.RefData

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- The zero word, the filler past the array's end. -/
def zw : Elt F .f32 := Scalar.ofBits .f32 0#32

/-- The two embedding blocks and the label block at point `t`, filled out with zeros past the array's end. -/
def in0 (c : Dev nD) (t : Fin cfg0.N) : S7864x256.Idx → Elt F .f32 :=
  win0_0.fill (grid0.coords t) (fun _ => zw) (iblk m c 0 t)
def in1 (c : Dev nD) (t : Fin cfg0.N) : S7864x256.Idx → Elt F .f32 :=
  win0_1.fill (grid0.coords t) (fun _ => zw) (iblk m c 1 t)
def in2 (c : Dev nD) (t : Fin cfg0.N) : S7864x1.Idx → Elt F .f32 :=
  win0_2.fill (grid0.coords t) (fun _ => zw) (iblk m c 2 t)

/-- The tile the body stores at point `t`: the masked block sum at the last point, the block sum elsewhere. -/
def out3 (c : Dev nD) (t : Fin cfg0.N) : S8x128.Idx → Elt F .f32 :=
  if k0_cond1 (grid0.coords t) = 1#1 then k0_pay2 (grid0.coords t) (in0 m c t) (in1 m c t) (in2 m c t)
  else k0_pay3 (in0 m c t) (in1 m c t) (in2 m c t)

/-- The launch data: the arrays as the region finds them, the staging buffers after the body as above. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => out3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = in0 m c t := by dsimp only [dats]
theorem after0_1 (c : Dev nD) (t : Fin cfg0.N) : (dats m 0 c).after 1 t = in1 m c t := by dsimp only [dats]
theorem after0_2 (c : Dev nD) (t : Fin cfg0.N) : (dats m 0 c).after 2 t = in2 m c t := by dsimp only [dats]
theorem after0_3 (c : Dev nD) (t : Fin cfg0.N) : (dats m 0 c).after 3 t = out3 m c t := by dsimp only [dats]

end Cert.ReferenceIdeal.RefData

end
-- ==== Proof.RefPay.lean ====
/-
  The reference kernel's stored tiles read at an entry.

  At a grid point the reference forms, for its 7864 rows, each row's loss  y·D + (1 - y)·H  and stores their sum in
  every entry of an 8 × 128 tile; at the last point a row whose number (7864 times the point plus the row) is
  65536 or more counts as zero.
-/
import proofs.«138735_g2000500922530033_pallasbulk_741_21_alg».proof.Proof.Gen.ReferenceIdeal.Skeleton
import proofs.«138735_g2000500922530033_pallasbulk_741_21_alg».proof.Proof.RowLoss

set_option maxRecDepth 16384

noncomputable section

open scoped BigOperators

namespace Cert.ReferenceIdeal.RefPay

open Cert.ReferenceIdeal Cert.ReferenceIdeal.Gen Cert.RowLoss
open Idealize.ShloMosaic Idealize.ShloMosaic.ValueIdx

/-- The squared distance of row r of a block pair. -/
def bD (v0 v1 : Vec Ideal S7864x256 .f32) (r : Fin 7864) : EReal :=
  rowD (fun c => v0 (ix2 r c)) (fun c => v1 (ix2 r c))

/-- The column of row losses at row r. -/
theorem pay1_apply (v0 v1 : Vec Ideal S7864x256 .f32) (v2 : Vec Ideal S7864x1 .f32) (r : Fin 7864) (z : Fin 1) :
    k0_pay1 (F := Ideal) v0 v1 v2 (ix2 r z) = rowLoss (v2 (ix2 r z)) (bD v0 v1 r) := by
  unfold k0_pay1
  try dsimp only
  rw [shapeCast_self]
  show v2 (ix2 r z) * dist2 v0 v1 (ix2 r z) + (one - v2 (ix2 r z)) * hinge (dist2 v0 v1 (ix2 r z)) = _
  rw [dist2_apply]
  rfl

/-- A 1 × 1 value stretched over the tile reads its one entry everywhere. -/
theorem tile_apply (x : FVec Ideal S1x1 .f32) (j : S8x128.Idx) :
    broadcastTo S8x128 (shapeCast S1x1 x shapeCasts_S1x1_S1x1) broadcasts_S1x1_S8x128 j = x (ix2 0 0) := by
  rw [shapeCast_self]
  refine broadcastTo_apply x _ j (ix2 0 0) fun a => ?_
  match a with
  | ⟨0, _⟩ => rfl
  | ⟨1, _⟩ => rfl

/-- The plain block sum, at every entry of the tile. -/
theorem pay3_apply (v0 v1 : Vec Ideal S7864x256 .f32) (v2 : Vec Ideal S7864x1 .f32) (j : S8x128.Idx) :
    k0_pay3 (F := Ideal) v0 v1 v2 j = ∑ r : Fin 7864, rowLoss (v2 (ix2 r 0)) (bD v0 v1 r) := by
  unfold k0_pay3
  try dsimp only
  rw [tile_apply]
  show extractAt _ _ _ = _
  refine (total_col _ _ _ _ _ _ _).trans (Finset.sum_congr rfl fun r _ => ?_)
  exact pay1_apply v0 v1 v2 r 0

/-- The row mask of the last point's body: row r of block n counts when its number is below 65536, compared as
    signed 32-bit words. -/
def mask (n r : ℕ) : BitVec 1 :=
  IntOp.cmpi .slt (IntOp.addi (BitVec.ofNat 32 r) (Scalar.muli (BitVec.ofNat 32 n) 7864#32)) 65536#32

/-- The masked block sum, at every entry of the tile. -/
theorem pay2_apply (i : grid0.Coords) (v0 v1 : Vec Ideal S7864x256 .f32) (v2 : Vec Ideal S7864x1 .f32) (j : S8x128.Idx) :
    k0_pay2 (F := Ideal) i v0 v1 v2 j
      = ∑ r : Fin 7864, Scalar.select (mask (i 0).val r.val) (rowLoss (v2 (ix2 r 0)) (bD v0 v1 r)) zero := by
  unfold k0_pay2
  try dsimp only
  rw [tile_apply]
  show extractAt _ _ _ = _
  refine (total_col _ _ _ _ _ _ _).trans (Finset.sum_congr rfl fun r _ => ?_)
  rw [select_apply, pay1_apply]
  refine congrArg (fun b => Scalar.select b _ _) ?_
  show IntOp.cmpi .slt (IntOp.addi (iota .tc S7864x1 32 [0] iota_S7864x1_d0_w32 (ix2 r 0)) _) _ = _
  rw [iota_single_apply]
  rfl

/-- In the ninth block the rows that count are the first 2624. -/
theorem mask_last : ∀ r : Fin 7864, mask 8 r.val = 1#1 ↔ 7864 * 8 + r.val < 65536 := by
  decide +kernel

/-- A row that does not count contributes the zero word, whatever its loss. -/
theorem select_mask (n r : ℕ) (x : EReal) : Scalar.select (mask n r) x zero = if mask n r = 1#1 then x else zero := rfl

end Cert.ReferenceIdeal.RefPay

end
-- ==== Proof.RefRead.lean ====
/-
  The reference's input blocks read at a row, and which entries of a block a fetch moves.

  The reference cuts the 65536 rows into nine blocks of 7864 rows; block t starts at row 7864·t. Blocks 0 to 7 lie
  inside the arrays; block 8 starts at row 62912 and only its first 2624 rows do. A fetch moves the part of the block
  inside the array — min(7864, 65536 - 7864·t) rows, every column — into the leading part of the staging buffer, so
  entry (r, k) of the block is moved exactly when row 7864·t + r exists, and then the staging buffer holds the array's
  entry (7864·t + r, k) there. The label column the call reads is the label vector with a trailing unit axis added by
  the host before the call, so its entry (7864·t + r, 0) is the vector's entry 7864·t + r.
-/
import proofs.«138735_g2000500922530033_pallasbulk_741_21_alg».proof.Proof.RefData
import Idealize.ShloMosaic.PureOps.Ideal
import Idealize.ShloMosaic.Lib.Pipeline.Value
import Idealize.ShloMosaic.Lib.ValueIdx
import Idealize.ShloMosaic.Lib.Tactic

set_option maxRecDepth 16384

noncomputable section

namespace Cert.ReferenceIdeal.RefRead

open Cert.ReferenceIdeal Cert.ReferenceIdeal.Gen Cert.ReferenceIdeal.RefData
open Idealize.ShloMosaic Idealize.ShloMosaic.TcCoe Idealize.ShloMosaic.Tactic Idealize.ShloMosaic.ValueIdx
open Idealize.SL Idealize.SL.Sem
open Idealize.ShloMosaic.Pipeline (Dat Window)

/-! ## The cut sizes and the index maps, over the nine points -/

/-- The grid has one axis: point t has coordinate t. -/
theorem coord0 : ∀ t : Fin cfg0.N, (grid0.coords t 0).val = t.val :=
  (by decide +kernel : ∀ t : Fin grid0.N, _)

/-- What a fetch of block t moves: the rows of the block inside the array, every column. -/
theorem xs0 : ∀ t : Fin cfg0.N, win0_0.xsize (grid0.coords t) 0 = min 7864 (65536 - 7864 * t.val)
    ∧ win0_0.xsize (grid0.coords t) 1 = 256 :=
  (by decide +kernel : ∀ t : Fin grid0.N, _)

theorem xs1 : ∀ t : Fin cfg0.N, win0_1.xsize (grid0.coords t) 0 = min 7864 (65536 - 7864 * t.val)
    ∧ win0_1.xsize (grid0.coords t) 1 = 256 :=
  (by decide +kernel : ∀ t : Fin grid0.N, _)

theorem xs2 : ∀ t : Fin cfg0.N, win0_2.xsize (grid0.coords t) 0 = min 7864 (65536 - 7864 * t.val)
    ∧ win0_2.xsize (grid0.coords t) 1 = 1 :=
  (by decide +kernel : ∀ t : Fin grid0.N, _)

/-- Each input window's index map: point t reads block (t, 0). -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

/-! ## Which entries a fetch moves

An entry of block t whose row exists in the array is moved; at a point other than the last every entry is. -/
theorem moved0 (t : Fin cfg0.N) (r : Fin 7864) (k : Fin 256) (h : 7864 * t.val + r.val < 65536) :
    win0_0.moved (grid0.coords t) (ix2 r k) = true := by
  rw [Window.moved_iff]
  obtain ⟨e0, e1⟩ := xs0 t
  have hr : r.val < 7864 := r.isLt
  have hk : k.val < 256 := k.isLt
  intro a
  match a with
  | ⟨0, _⟩ => show r.val < win0_0.xsize (grid0.coords t) 0; rw [e0]; omega
  | ⟨1, _⟩ => show k.val < win0_0.xsize (grid0.coords t) 1; rw [e1]; omega

theorem moved0_all (t : Fin cfg0.N) (ht : t.val ≠ 8) (j : S7864x256.Idx) : win0_0.moved (grid0.coords t) j = true := by
  rw [Window.moved_iff]
  obtain ⟨e0, e1⟩ := xs0 t
  have hN : t.val < 9 := lt_of_lt_of_eq t.isLt N_0
  have h0 : (j 0).val < 7864 := idx2_lt0 j
  have h1 : (j 1).val < 256 := idx2_lt1 j
  intro a
  match a with
  | ⟨0, _⟩ => show (j 0).val < win0_0.xsize (grid0.coords t) 0; rw [e0]; omega
  | ⟨1, _⟩ => show (j 1).val < win0_0.xsize (grid0.coords t) 1; rw [e1]; omega

theorem moved1 (t : Fin cfg0.N) (r : Fin 7864) (k : Fin 256) (h : 7864 * t.val + r.val < 65536) :
    win0_1.moved (grid0.coords t) (ix2 r k) = true := by
  rw [Window.moved_iff]
  obtain ⟨e0, e1⟩ := xs1 t
  have hr : r.val < 7864 := r.isLt
  have hk : k.val < 256 := k.isLt
  intro a
  match a with
  | ⟨0, _⟩ => show r.val < win0_1.xsize (grid0.coords t) 0; rw [e0]; omega
  | ⟨1, _⟩ => show k.val < win0_1.xsize (grid0.coords t) 1; rw [e1]; omega

theorem moved1_all (t : Fin cfg0.N) (ht : t.val ≠ 8) (j : S7864x256.Idx) : win0_1.moved (grid0.coords t) j = true := by
  rw [Window.moved_iff]
  obtain ⟨e0, e1⟩ := xs1 t
  have hN : t.val < 9 := lt_of_lt_of_eq t.isLt N_0
  have h0 : (j 0).val < 7864 := idx2_lt0 j
  have h1 : (j 1).val < 256 := idx2_lt1 j
  intro a
  match a with
  | ⟨0, _⟩ => show (j 0).val < win0_1.xsize (grid0.coords t) 0; rw [e0]; omega
  | ⟨1, _⟩ => show (j 1).val < win0_1.xsize (grid0.coords t) 1; rw [e1]; omega

theorem moved2 (t : Fin cfg0.N) (r : Fin 7864) (z : Fin 1) (h : 7864 * t.val + r.val < 65536) :
    win0_2.moved (grid0.coords t) (ix2 r z) = true := by
  rw [Window.moved_iff]
  obtain ⟨e0, e1⟩ := xs2 t
  have hr : r.val < 7864 := r.isLt
  have hz : z.val < 1 := z.isLt
  intro a
  match a with
  | ⟨0, _⟩ => show r.val < win0_2.xsize (grid0.coords t) 0; rw [e0]; omega
  | ⟨1, _⟩ => show z.val < win0_2.xsize (grid0.coords t) 1; rw [e1]; omega

theorem moved2_all (t : Fin cfg0.N) (ht : t.val ≠ 8) (j : S7864x1.Idx) : win0_2.moved (grid0.coords t) j = true := by
  rw [Window.moved_iff]
  obtain ⟨e0, e1⟩ := xs2 t
  have hN : t.val < 9 := lt_of_lt_of_eq t.isLt N_0
  have h0 : (j 0).val < 7864 := idx2_lt0 j
  have h1 : (j 1).val < 1 := idx2_lt1 j
  intro a
  match a with
  | ⟨0, _⟩ => show (j 0).val < win0_2.xsize (grid0.coords t) 0; rw [e0]; omega
  | ⟨1, _⟩ => show (j 1).val < win0_2.xsize (grid0.coords t) 1; rw [e1]; omega

/-! ## Filled blocks at moved entries -/

/-- A filled block at an entry the fetch moves is the fetched part there, -/
theorem fill_of_moved {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; rw [dif_pos h]

/-- so it does not depend there on what the block was filled out with; -/
theorem fill_congr_of_moved {G : Pipeline.Grid} (w : Window sig G) {α : Type} (i : G.Coords) (d d' : w.block.Idx → α)
    (g : (w.xblock i).Idx → α) (j : w.block.Idx) (h : w.moved i j = true) : w.fill i d g j = w.fill i d' g j :=
  (fill_of_moved w i d g j h).trans (fill_of_moved w i d' g j h).symm

/-- and when every entry is moved the filler does not matter at all. -/
theorem fill_congr_of_all_moved {G : Pipeline.Grid} (w : Window sig G) {α : Type} (i : G.Coords) (d d' : w.block.Idx → α)
    (g : (w.xblock i).Idx → α) (h : ∀ j, w.moved i j = true) : w.fill i d g = w.fill i d' g :=
  funext fun j => fill_congr_of_moved w i d d' g j (h j)
/-! ## The blocks read at a row inside the arrays -/

variable (m : (ℓ : Loc nD τ sig) → Buf (Elt Ideal) ℓ)

theorem in0_apply (c : Dev nD) (t : Fin cfg0.N) (r : Fin 7864) (k : Fin 256) (h : 7864 * t.val + r.val < 65536) :
    in0 m c t (ix2 r k) = m ((c.tc : Thread nD τ).loc main_arg0) (ix2 ⟨7864 * t.val + r.val, h⟩ k) := by
  unfold in0
  refine (fill_of_moved win0_0 (grid0.coords t) _ _ (ix2 r k) (moved0 t r k h)).trans ?_
  unfold iblk
  rw [View.read_apply]
  show V m c main_arg0 (((cfg0.win 0).blk t).view.emb fun a => ⟨(ix2 r k a).val, _⟩) = _
  refine (congrFun (V_main_arg0 m c) _).trans ?_
  refine congrArg (m ((c.tc : Thread nD τ).loc main_arg0)) ?_
  obtain ⟨e0, e1⟩ := index0 t
  funext a; apply Fin.ext
  match a with
  | ⟨0, _⟩ => show win0_0.index t (0 : Fin 2) * 7864 + 1 * r.val = 7864 * t.val + r.val; rw [e0]; omega
  | ⟨1, _⟩ => show win0_0.index t (1 : Fin 2) * 256 + 1 * k.val = k.val; rw [e1]; omega

theorem in1_apply (c : Dev nD) (t : Fin cfg0.N) (r : Fin 7864) (k : Fin 256) (h : 7864 * t.val + r.val < 65536) :
    in1 m c t (ix2 r k) = m ((c.tc : Thread nD τ).loc main_arg1) (ix2 ⟨7864 * t.val + r.val, h⟩ k) := by
  unfold in1
  refine (fill_of_moved win0_1 (grid0.coords t) _ _ (ix2 r k) (moved1 t r k h)).trans ?_
  unfold iblk
  rw [View.read_apply]
  show V m c main_arg1 (((cfg0.win 1).blk t).view.emb fun a => ⟨(ix2 r k a).val, _⟩) = _
  refine (congrFun (V_main_arg1 m c) _).trans ?_
  refine congrArg (m ((c.tc : Thread nD τ).loc main_arg1)) ?_
  obtain ⟨e0, e1⟩ := index1 t
  funext a; apply Fin.ext
  match a with
  | ⟨0, _⟩ => show win0_1.index t (0 : Fin 2) * 7864 + 1 * r.val = 7864 * t.val + r.val; rw [e0]; omega
  | ⟨1, _⟩ => show win0_1.index t (1 : Fin 2) * 256 + 1 * k.val = k.val; rw [e1]; omega

/-- The label column the call reads is the label vector given a trailing unit axis by the host beforehand. -/
theorem V_main_v0 (c : Dev nD) :
    (V m c main_v0 : S65536x1.Idx → EReal) = shapeCast S65536x1 (m ((c.tc : Thread nD τ).loc main_arg2)) shapeCasts_S65536_S65536x1 := by
  show StableHlo.after hostOps0 (fun b => m (c, b)) (Proc.devRef .tc main_v0) = _
  after_results
  rfl

theorem in2_apply (c : Dev nD) (t : Fin cfg0.N) (r : Fin 7864) (z : Fin 1) (h : 7864 * t.val + r.val < 65536) :
    in2 m c t (ix2 r z) = m ((c.tc : Thread nD τ).loc main_arg2) (ix1 ⟨7864 * t.val + r.val, h⟩) := by
  unfold in2
  refine (fill_of_moved win0_2 (grid0.coords t) _ _ (ix2 r z) (moved2 t r z h)).trans ?_
  unfold iblk
  rw [View.read_apply]
  show V m c main_v0 (((cfg0.win 2).blk t).view.emb fun a => ⟨(ix2 r z a).val, _⟩) = _
  refine (congrFun (V_main_v0 m c) _).trans ?_
  refine shapeCast_apply _ _ _ _ ?_
  show (S65536.rowMajor (ix1 ⟨7864 * t.val + r.val, h⟩)).val = (S65536x1.rowMajor _).val
  rw [Shape.rowMajor_val_one, Shape.rowMajor_val_two]
  obtain ⟨e0, e1⟩ := index2 t
  have hz : z.val < 1 := z.isLt
  show 7864 * t.val + r.val = (win0_2.index t (0 : Fin 2) * 7864 + 1 * r.val) * 1 + (win0_2.index t (1 : Fin 2) * 1 + 1 * z.val)
  rw [e0, e1]; omega

end Cert.ReferenceIdeal.RefRead

end
-- ==== Proof.RefIndep.lean ====
/-
  The stored tile does not depend on what the staging buffers hold past the arrays' end.

  At the first eight points the blocks lie inside the arrays, so nothing of a staging buffer is left unnamed.
  At the ninth point rows 2624 and up of the block lie past row 65535; the body replaces their per-row loss
  by zero before summing, and a row's loss reads the inputs at that row only, so the sum reads no unnamed word.
-/
import proofs.«138735_g2000500922530033_pallasbulk_741_21_alg».proof.Proof.RefData
import proofs.«138735_g2000500922530033_pallasbulk_741_21_alg».proof.Proof.RefPay
import proofs.«138735_g2000500922530033_pallasbulk_741_21_alg».proof.Proof.RefRead
import Idealize.ShloMosaic.PureOps.Ideal

set_option maxRecDepth 16384

noncomputable section

namespace Cert.ReferenceIdeal.RefData

open Cert.ReferenceIdeal Cert.ReferenceIdeal.Gen
open Idealize.ShloMosaic Idealize.ShloMosaic.TcCoe Idealize.SL.Sem
open Idealize.ShloMosaic.ValueIdx

variable (m : (ℓ : Loc nD τ sig) → Buf (Elt Ideal) ℓ)

/-- The body takes its masked branch exactly at the ninth point. -/
theorem indep_cond1 : ∀ t : Fin cfg0.N, k0_cond1 (grid0.coords t) = 1#1 ↔ t.val = 8 :=
  (by decide +kernel : ∀ t : Fin grid0.N, k0_cond1 (grid0.coords t) = 1#1 ↔ t.val = 8)

/-- At a point other than the last, the block sum of blocks filled out with anything is that of the zero-filled ones. -/
theorem pay3_indep (c : Dev nD) (t : Fin cfg0.N) (ht : ¬ k0_cond1 (grid0.coords t) = 1#1)
    (d0 d1 : S7864x256.Idx → Elt Ideal .f32) (d2 : S7864x1.Idx → Elt Ideal .f32) :
    k0_pay3 (F := Ideal) (win0_0.fill (grid0.coords t) d0 (iblk m c 0 t)) (win0_1.fill (grid0.coords t) d1 (iblk m c 1 t))
        (win0_2.fill (grid0.coords t) d2 (iblk m c 2 t))
      = k0_pay3 (F := Ideal) (in0 m c t) (in1 m c t) (in2 m c t) := by
  have h8 : t.val ≠ 8 := fun e => ht ((indep_cond1 t).mpr e)
  have e0 : win0_0.fill (grid0.coords t) d0 (iblk m c 0 t) = in0 m c t :=
    RefRead.fill_congr_of_all_moved win0_0 (grid0.coords t) d0 (fun _ => zw) (iblk m c 0 t) (RefRead.moved0_all t h8)
  have e1 : win0_1.fill (grid0.coords t) d1 (iblk m c 1 t) = in1 m c t :=
    RefRead.fill_congr_of_all_moved win0_1 (grid0.coords t) d1 (fun _ => zw) (iblk m c 1 t) (RefRead.moved1_all t h8)
  have e2 : win0_2.fill (grid0.coords t) d2 (iblk m c 2 t) = in2 m c t :=
    RefRead.fill_congr_of_all_moved win0_2 (grid0.coords t) d2 (fun _ => zw) (iblk m c 2 t) (RefRead.moved2_all t h8)
  rw [e0, e1, e2]

/-- At the last point, the masked block sum of blocks filled out with anything is that of the zero-filled ones. -/
theorem pay2_indep (c : Dev nD) (t : Fin cfg0.N) (ht : k0_cond1 (grid0.coords t) = 1#1)
    (d0 d1 : S7864x256.Idx → Elt Ideal .f32) (d2 : S7864x1.Idx → Elt Ideal .f32) :
    k0_pay2 (F := Ideal) (grid0.coords t) (win0_0.fill (grid0.coords t) d0 (iblk m c 0 t)) (win0_1.fill (grid0.coords t) d1 (iblk m c 1 t))
        (win0_2.fill (grid0.coords t) d2 (iblk m c 2 t))
      = k0_pay2 (F := Ideal) (grid0.coords t) (in0 m c t) (in1 m c t) (in2 m c t) := by
  have h8 : t.val = 8 := (indep_cond1 t).mp ht
  have hc : (grid0.coords t 0).val = 8 := (RefRead.coord0 t).trans h8
  funext j
  refine (RefPay.pay2_apply (grid0.coords t) (win0_0.fill (grid0.coords t) d0 (iblk m c 0 t))
    (win0_1.fill (grid0.coords t) d1 (iblk m c 1 t)) (win0_2.fill (grid0.coords t) d2 (iblk m c 2 t)) j).trans ?_
  refine Eq.trans ?_ (RefPay.pay2_apply (grid0.coords t) (in0 m c t) (in1 m c t) (in2 m c t) j).symm
  refine Finset.sum_congr rfl fun r _ => ?_
  rw [RefPay.select_mask, RefPay.select_mask, hc]
  by_cases hm : RefPay.mask 8 r.val = 1#1
  · rw [if_pos hm, if_pos hm]
    have hlt : 7864 * t.val + r.val < 65536 := by rw [h8]; exact (RefPay.mask_last r).mp hm
    have hy : win0_2.fill (grid0.coords t) d2 (iblk m c 2 t) (ix2 r 0) = in2 m c t (ix2 r 0) :=
      RefRead.fill_congr_of_moved win0_2 (grid0.coords t) d2 (fun _ => zw) (iblk m c 2 t) (ix2 r 0) (RefRead.moved2 t r 0 hlt)
    have hD : RefPay.bD (win0_0.fill (grid0.coords t) d0 (iblk m c 0 t)) (win0_1.fill (grid0.coords t) d1 (iblk m c 1 t)) r
        = RefPay.bD (in0 m c t) (in1 m c t) r := by
      unfold RefPay.bD
      refine congrArg₂ Cert.RowLoss.rowD (funext fun k => ?_) (funext fun k => ?_)
      · exact RefRead.fill_congr_of_moved win0_0 (grid0.coords t) d0 (fun _ => zw) (iblk m c 0 t) (ix2 r k) (RefRead.moved0 t r k hlt)
      · exact RefRead.fill_congr_of_moved win0_1 (grid0.coords t) d1 (fun _ => zw) (iblk m c 1 t) (ix2 r k) (RefRead.moved1 t r k hlt)
    rw [hy, hD]
  · rw [if_neg hm, if_neg hm]

end Cert.ReferenceIdeal.RefData

end
-- ==== Proof.RefBody.lean ====
/-
  The reference program's body, point by point, and its run.

  At each of the nine grid points the pipeline hands the body three input staging buffers just fetched — the block's
  rows inside the arrays and, past the arrays' end (at the ninth point, rows 2624 and up), words nothing names — and
  an output buffer holding anything. The body loads the three inputs whole, computes the per-row loss, and stores one
  whole tile: at the ninth point the sum of the losses with the rows past the arrays' end replaced by zero, at the
  other points the plain sum. So the inputs' buffers leave as they came, and the output's leaves holding the tile
  computed from what the inputs' buffers held. That tile does not depend on the unnamed words, so it is the tile of
  the zero-filled blocks, which is what the launch data say the buffer holds. From this obligation the library's
  frame theorem gives the run of @main, and read at the argument arrays, that they end as launched.
-/
import proofs.«138735_g2000500922530033_pallasbulk_741_21_alg».proof.Proof.RefIndep

set_option maxRecDepth 16384

noncomputable section

namespace Cert.ReferenceIdeal.RefBody

open Cert.ReferenceIdeal Cert.ReferenceIdeal.Gen Cert.ReferenceIdeal.RefData
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The branch conditions over the nine points -/

/-- The masked branch is taken at the last point only. -/
theorem hcond1 : ∀ t : Fin cfg0.N, k0_cond1 (grid0.coords t) = 1#1 ↔ t.val = 8 :=
  (by decide +kernel : ∀ t : Fin grid0.N, k0_cond1 (grid0.coords t) = 1#1 ↔ t.val = 8)

/-- The plain branch is taken at every other point. -/
theorem hcond2 : ∀ t : Fin cfg0.N, k0_cond2 (grid0.coords t) = 1#1 ↔ t.val ≠ 8 :=
  (by decide +kernel : ∀ t : Fin grid0.N, k0_cond2 (grid0.coords t) = 1#1 ↔ t.val ≠ 8)

/-- So every point stores into the output tile: none is idle for it. -/
theorem hidle3 : ∀ t : Fin cfg0.N, idle0 3 (grid0.coords t) = false :=
  (by decide +kernel : ∀ t : Fin grid0.N, idle0 3 (grid0.coords t) = false)

/-- The output tile is never fetched. -/
theorem fetch0_3 : ∀ t : Fin cfg0.N, (cfg0.win 3).fetch t = false :=
  (by decide +kernel : ∀ t : Fin grid0.N, win0_3.fetch t = false)

/-! ## Whole-buffer accesses at offset zero -/

section Whole

variable {Val : EltTy → Type} {κ : Kind} {sp : Space} {s : Shape} {e : EltTy}

/-- A load of a whole buffer through the rectangle of its own sizes at offset zero reads the buffer's contents. -/
theorem readAt_unit_zero_unread {M : Memref sig κ sp s e} (h : M.IsWhole) {off : Fin s.rank → Nat}
    (hz : off = fun _ => 0) (inb : ∀ a, off a + s.size a ≤ s.size a) (X : s.Idx → Val e) :
    M.view.readAt Val (Rect.unit (s := s) off s.size inb).toLoadRect (h.unread X) = X := by
  subst hz
  funext x
  exact (congrFun (h.read_unread X) _).trans (congrArg X (Rect.emb_whole_apply s x))

/-- One unmasked store through the rectangle of the buffer's own sizes at offset zero leaves the payload, whatever
    the buffer held. -/
theorem read_writes_unit_zero (v : View sig κ sp s e) {off : Fin s.rank → Nat} (hz : off = fun _ => 0)
    (inb : ∀ a, off a + s.size a ≤ s.size a) (f : v.ty.Contents Val) (w : s.Idx → Val e) :
    v.read Val (v.writes Val f [⟨Rect.unit (s := s) off s.size inb, w⟩]) = w := by
  subst hz
  funext x
  have h := View.read_writes_cons_emb v f (Rect.unit (s := s) (fun _ => 0) s.size inb) w [] x
  rwa [show (Rect.unit (s := s) (fun _ => 0) s.size inb).emb x = x from Rect.emb_whole_apply s x] at h

end Whole

theorem hz2 : (![0, 0] : Fin 2 → Nat) = fun _ => 0 := funext fun a => by fin_cases a <;> rfl

/-! ## The body on whole staging buffers -/

/-- At the last point (masked branch taken, plain branch not): from whole staging buffers holding `X0`, `X1`,
    `X2` and an output buffer holding anything, the body ends with the inputs' buffers as they were and the output
    buffer holding the masked block sum of `X0`, `X1`, `X2`. -/
theorem run_last (c : Dev nD) (i : grid0.Coords)
    (arg1 : Memref sig .tc .vmem S7864x256 .f32) (harg1 : arg1.IsWhole)
    (arg2 : Memref sig .tc .vmem S7864x256 .f32) (harg2 : arg2.IsWhole)
    (arg3 : Memref sig .tc .vmem S7864x1 .f32) (harg3 : arg3.IsWhole)
    (arg4 : Memref sig .tc .vmem S8x128 .f32) (harg4 : arg4.IsWhole)
    (hc1 : k0_cond1 i = 1#1) (hc2 : ¬ k0_cond2 i = 1#1)
    (X0 : Vec Ideal S7864x256 .f32) (X1 : Vec Ideal S7864x256 .f32) (X2 : Vec Ideal S7864x1 .f32) (X3 : Vec Ideal S8x128 .f32)
    (E : Set ℕ) (K : PUnit → sProp 𝕄) :
    iprop(owns (c : Thread nD τ) arg1 fullShare X0 ∗ owns (c : Thread nD τ) arg2 fullShare X1
          ∗ owns (c : Thread nD τ) arg3 fullShare X2 ∗ owns (c : Thread nD τ) arg4 fullShare X3
          ∗ (iprop(owns (c : Thread nD τ) arg1 fullShare X0 ∗ owns (c : Thread nD τ) arg2 fullShare X1
                ∗ owns (c : Thread nD τ) arg3 fullShare X2
                ∗ owns (c : Thread nD τ) arg4 fullShare (k0_pay2 (F := Ideal) i X0 X1 X2)) -∗ K ⟨⟩))
      ⊢ wp frame (wpE (defs₀ (F := Ideal)) Variants.none c none) E
          (cc0__contrastive_loss_kernel (F := Ideal) i arg1 harg1 arg2 harg2 arg3 harg3 arg4 harg4) K := by
  simp only [cc0__contrastive_loss_kernel_eq_skeleton]; unfold cc0__contrastive_loss_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc1 | exact hc2)
  sl_step
  iapply Hk
  rw [readAt_unit_zero_unread harg1 hz2 _ X0, readAt_unit_zero_unread harg2 hz2 _ X1, readAt_unit_zero_unread harg3 hz2 _ X2]
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro; exact read_writes_unit_zero arg4.view hz2 _ _ _

/-- At any other point (masked branch not taken, plain branch taken): likewise, the output buffer ending with the
    plain block sum of `X0`, `X1`, `X2`. -/
theorem run_mid (c : Dev nD) (i : grid0.Coords)
    (arg1 : Memref sig .tc .vmem S7864x256 .f32) (harg1 : arg1.IsWhole)
    (arg2 : Memref sig .tc .vmem S7864x256 .f32) (harg2 : arg2.IsWhole)
    (arg3 : Memref sig .tc .vmem S7864x1 .f32) (harg3 : arg3.IsWhole)
    (arg4 : Memref sig .tc .vmem S8x128 .f32) (harg4 : arg4.IsWhole)
    (hc1 : ¬ k0_cond1 i = 1#1) (hc2 : k0_cond2 i = 1#1)
    (X0 : Vec Ideal S7864x256 .f32) (X1 : Vec Ideal S7864x256 .f32) (X2 : Vec Ideal S7864x1 .f32) (X3 : Vec Ideal S8x128 .f32)
    (E : Set ℕ) (K : PUnit → sProp 𝕄) :
    iprop(owns (c : Thread nD τ) arg1 fullShare X0 ∗ owns (c : Thread nD τ) arg2 fullShare X1
          ∗ owns (c : Thread nD τ) arg3 fullShare X2 ∗ owns (c : Thread nD τ) arg4 fullShare X3
          ∗ (iprop(owns (c : Thread nD τ) arg1 fullShare X0 ∗ owns (c : Thread nD τ) arg2 fullShare X1
                ∗ owns (c : Thread nD τ) arg3 fullShare X2
                ∗ owns (c : Thread nD τ) arg4 fullShare (k0_pay3 (F := Ideal) X0 X1 X2)) -∗ K ⟨⟩))
      ⊢ wp frame (wpE (defs₀ (F := Ideal)) Variants.none c none) E
          (cc0__contrastive_loss_kernel (F := Ideal) i arg1 harg1 arg2 harg2 arg3 harg3 arg4 harg4) K := by
  simp only [cc0__contrastive_loss_kernel_eq_skeleton]; unfold cc0__contrastive_loss_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc1 | exact hc2)
  sl_step
  iapply Hk
  rw [readAt_unit_zero_unread harg1 hz2 _ X0, readAt_unit_zero_unread harg2 hz2 _ X1, readAt_unit_zero_unread harg3 hz2 _ X2]
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro; exact read_writes_unit_zero arg4.view hz2 _ _ _

/-! ## What the body finds in the staging buffers -/

/-- Each input's buffer was just fetched: the block on the rows inside the array, `d` past the array's end. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]

/-- The output's buffer is never fetched and was written back at the point before: it holds nothing named. -/
theorem before_3 (c : Dev nD) (t : Fin cfg0.N) (d) : (dats m 0 c).before 3 t d = d := by
  by_cases ht : t.val = 0
  · unfold Dat.before; rw [if_neg (by rw [fetch0_3 t]; exact Bool.false_ne_true), if_pos ht]
  · rw [Dat.before_of_pos _ 3 t ht (fetch0_3 t), if_pos (flush0_3 _)]

/-! ## The body obligation -/

/-- At every point the body runs from the staging buffers as the pipeline hands them over — each input's block filled
    out with some `d` past the array's end, the output's buffer at anything — and hands the inputs' buffers back as
    they were, which on the rows inside the array are the zero-filled blocks', and the output's buffer holding the
    stored tile: the masked block sum at the last point, the plain block sum elsewhere, neither of which reads the
    filler. -/
theorem body_obligation (c : Dev nD) : BodyObligationLoose (dats m 0 c) (defs₀ (F := Ideal)) Variants.none () Set.univ := fun t => by
  rw [bigSep_W0, bigSep_W0]
  simp only
  rw [hidle3 t]
  simp only
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  rw [before_0 m c t d0, before_1 m c t d1, before_2 m c t d2, before_3 m c t d3]
  have hx0 : win0_0.cut (grid0.coords t) (in0 m c t) = iblk m c 0 t := win0_0.cut_fill _ _ _
  have hx1 : win0_1.cut (grid0.coords t) (in1 m c t) = iblk m c 1 t := win0_1.cut_fill _ _ _
  have hx2 : win0_2.cut (grid0.coords t) (in2 m c t) = iblk m c 2 t := win0_2.cut_fill _ _ _
  by_cases h8 : t.val = 8
  · have hc1 : k0_cond1 (grid0.coords t) = 1#1 := (hcond1 t).mpr h8
    have hc2 : ¬ k0_cond2 (grid0.coords t) = 1#1 := fun h => (hcond2 t).mp h h8
    iapply (run_last c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3)) hc1 hc2
      (win0_0.fill (grid0.coords t) d0 (iblk m c 0 t)) (win0_1.fill (grid0.coords t) d1 (iblk m c 1 t))
      (win0_2.fill (grid0.coords t) d2 (iblk m c 2 t)) d3 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]
    · iexists d0
      change _ ⊢ owns (c : Thread nD τ) (stage0_0 (cfg0.slots t 0)) fullShare (win0_0.fill (grid0.coords t) d0 (win0_0.cut (grid0.coords t) (in0 m c t)))
      rw [hx0]
    isplitl [H1]
    · iexists d1
      change _ ⊢ owns (c : Thread nD τ) (stage0_1 (cfg0.slots t 1)) fullShare (win0_1.fill (grid0.coords t) d1 (win0_1.cut (grid0.coords t) (in1 m c t)))
      rw [hx1]
    isplitl [H2]
    · iexists d2
      change _ ⊢ owns (c : Thread nD τ) (stage0_2 (cfg0.slots t 2)) fullShare (win0_2.fill (grid0.coords t) d2 (win0_2.cut (grid0.coords t) (in2 m c t)))
      rw [hx2]
    · unfold out3; rw [if_pos hc1, ← pay2_indep m c t hc1 d0 d1 d2]; iexact H3
  · have hc1 : ¬ k0_cond1 (grid0.coords t) = 1#1 := fun h => h8 ((hcond1 t).mp h)
    have hc2 : k0_cond2 (grid0.coords t) = 1#1 := (hcond2 t).mpr h8
    iapply (run_mid c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3)) hc1 hc2
      (win0_0.fill (grid0.coords t) d0 (iblk m c 0 t)) (win0_1.fill (grid0.coords t) d1 (iblk m c 1 t))
      (win0_2.fill (grid0.coords t) d2 (iblk m c 2 t)) d3 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]
    · iexists d0
      change _ ⊢ owns (c : Thread nD τ) (stage0_0 (cfg0.slots t 0)) fullShare (win0_0.fill (grid0.coords t) d0 (win0_0.cut (grid0.coords t) (in0 m c t)))
      rw [hx0]
    isplitl [H1]
    · iexists d1
      change _ ⊢ owns (c : Thread nD τ) (stage0_1 (cfg0.slots t 1)) fullShare (win0_1.fill (grid0.coords t) d1 (win0_1.cut (grid0.coords t) (in1 m c t)))
      rw [hx1]
    isplitl [H2]
    · iexists d2
      change _ ⊢ owns (c : Thread nD τ) (stage0_2 (cfg0.slots t 2)) fullShare (win0_2.fill (grid0.coords t) d2 (win0_2.cut (grid0.coords t) (in2 m c t)))
      rw [hx2]
    · unfold out3; rw [if_neg hc1, ← pay3_indep m c t hc1 d0 d1 d2]; iexact H3

/-! ## The run and the frame -/

set_option backward.isDefEq.respectTransparency.types false in
/-- From any memory with zero counters every weakly fair execution of @main on the TensorCores terminates, and every
    final state has each array of the pipeline at what the launch data compute and every other unscoped buffer as the
    host lines after the region leave it. -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The reference program runs and its argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.RefBody

end
-- ==== Proof.RefFinal.lean ====
/-
  What the reference program's result holds after the run.

  The pallas_call writes a [72,128] array as nine (8,128) tiles, tile t (rows 8t to 8t+7) at grid point t, and the
  tiles partition the array: row r belongs to tile r / 8, at row r % 8 of it. So after the run the array is one
  function of the nine stored tiles. The host then regroups the array as [9,8,128], keeps entry (0,0) of each of the
  nine groups, lays the nine kept numbers out as a vector, sums them starting from the constant 0, and multiplies the
  sum by the constant word 0x37000000 (2^-17). Entry (t,0,0) of the regrouped array is entry (8t,0) of the array, that
  is entry (0,0) of tile t; hence the result is
      (0 + the sum over the nine points t of entry (0,0) of tile t) * 2^-17.
  The last theorem reads this off a run of the program whose post states every window's array and every other buffer.
-/
import proofs.«138735_g2000500922530033_pallasbulk_741_21_alg».proof.Proof.RefData
import Idealize.ShloMosaic.PureOps.Ideal
import Idealize.ShloMosaic.PureOps.Ideal.Laws
import Idealize.ShloMosaic.Lib.Pipeline.Value
import Idealize.ShloMosaic.Lib.ValueIdx
import Idealize.ShloMosaic.Lib.IdealHost
import Idealize.ShloMosaic.Lib.Tactic

set_option maxRecDepth 16384

noncomputable section

namespace Cert.ReferenceIdeal.RefFinal

open Cert.ReferenceIdeal Cert.ReferenceIdeal.Gen Cert.ReferenceIdeal.RefData
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable (m : (ℓ : Loc nD τ sig) → Buf (Elt Ideal) ℓ)

/-! ## The array as one function of the nine tiles -/

/-- Row r of the [72,128] array lies in tile r / 8, and there are nine tiles. -/
theorem tile_lt (i : S72x128.Idx) : (i 0).val / 8 < cfg0.N := by
  have h : (i 0).val < 72 := (i 0).isLt
  rw [show cfg0.N = 9 from N_0]; omega

/-- The whole array: entry (r, l) is entry (r % 8, l) of the tile stored at point r / 8. -/
def G (c : Dev nD) : S72x128.Idx → EReal := fun i =>
  out3 m c ⟨(i 0).val / 8, tile_lt i⟩
    (ix2 (⟨(i 0).val % 8, Nat.mod_lt _ (by decide)⟩ : Fin 8) (⟨(i 1).val, (i 1).isLt⟩ : Fin 128))

/-- Entry (8t + a, l) of the array is entry (a, l) of tile t. -/
theorem G_at (c : Dev nD) (t : Fin cfg0.N) (y : S8x128.Idx) (i : S72x128.Idx)
    (h0 : (i 0).val = t.val * 8 + (y 0).val) (h1 : (i 1).val = (y 1).val) : G m c i = out3 m c t y := by
  have hy0 : (y 0).val < 8 := idx2_lt0 y
  have ht : (⟨(i 0).val / 8, tile_lt i⟩ : Fin cfg0.N) = t := Fin.ext (by show (i 0).val / 8 = t.val; omega)
  have hy : ix2 (⟨(i 0).val % 8, Nat.mod_lt _ (by decide)⟩ : Fin 8) (⟨(i 1).val, (i 1).isLt⟩ : Fin 128) = y := by
    funext a
    match a with
    | ⟨0, _⟩ => exact Fin.ext (by show (i 0).val % 8 = (y 0).val; omega)
    | ⟨1, _⟩ => exact Fin.ext h1
  show out3 m c _ _ = out3 m c t y
  rw [ht, hy]

/-- The output window's index map: point t writes block (t, 0). -/
theorem index3 : ∀ t : Fin cfg0.N, win0_3.index t (0 : Fin 2) = t.val ∧ win0_3.index t (1 : Fin 2) = 0 :=
  (by decide +kernel : ∀ t : Fin grid0.N, _)

/-- What point t writes back is block t of `G`: the tile itself, since entry y of block (t, 0) sits at
    (8t + y 0, y 1) in the array. -/
theorem flushed_eq (c : Dev nD) (t : Fin cfg0.N) :
    (dats m 0 c).flushed 3 t = ((cfg0.win 3).blk t).view.read (Elt Ideal) (G m c) := by
  show (dats m 0 c).after 3 t = _
  rw [after0_3]
  funext y
  rw [View.read_apply]
  show out3 m c t y = G m c (((cfg0.win 3).blk t).view.emb y)
  obtain ⟨e0, e1⟩ := index3 t
  refine (G_at m c t y _ ?_ ?_).symm
  · show win0_3.index t (0 : Fin 2) * 8 + 1 * (y 0).val = t.val * 8 + (y 0).val
    rw [e0]; omega
  · show win0_3.index t (1 : Fin 2) * 128 + 1 * (y 1).val = (y 1).val
    rw [e1]; omega

/-- An index of the array is in point t's block iff each coordinate is in the block's range on its axis. -/
theorem mem_blk (t : Fin cfg0.N) (i : S72x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v1).slice (win0_3.rect t)).set ↔ _
  rw [View.set_slice_whole, Rect.mem_set_unit]
  exact Iff.rfl

/-- The nine blocks cover the array: row r is in the block of point r / 8, which is written back. -/
theorem cover (i : S72x128.Idx) :
    ∃ t : Fin cfg0.N, (cfg0.win 3).flush t = true ∧ i ∈ ((cfg0.win 3).blk t).view.set := by
  refine ⟨⟨(i 0).val / 8, tile_lt i⟩, flush0_3 _, ?_⟩
  rw [mem_blk]
  obtain ⟨e0, e1⟩ := index3 ⟨(i 0).val / 8, tile_lt i⟩
  have hi0 : (i 0).val < 72 := (i 0).isLt
  have hi1 : (i 1).val < 128 := (i 1).isLt
  intro a
  match a with
  | ⟨0, _⟩ =>
    show win0_3.index ⟨(i 0).val / 8, tile_lt i⟩ (0 : Fin 2) * 8 ≤ (i 0).val
      ∧ (i 0).val < win0_3.index ⟨(i 0).val / 8, tile_lt i⟩ (0 : Fin 2) * 8 + 8
    rw [e0]; show (i 0).val / 8 * 8 ≤ (i 0).val ∧ (i 0).val < (i 0).val / 8 * 8 + 8; omega
  | ⟨1, _⟩ =>
    show win0_3.index ⟨(i 0).val / 8, tile_lt i⟩ (1 : Fin 2) * 128 ≤ (i 1).val
      ∧ (i 1).val < win0_3.index ⟨(i 0).val / 8, tile_lt i⟩ (1 : Fin 2) * 128 + 128
    rw [e1]; omega

/-- The array after the run is `G`. -/
theorem final3 (c : Dev nD) : (dats m 0 c).arrAt 3 cfg0.N = G m c :=
  (dats m 0 c).arrAt_eq_of_cover 3 (G m c) (fun t _ => flushed_eq m c t) cover

/-! ## The host operations after the call -/

/-- A vector's indices are its coordinates, -/
def idxEquiv1 {n : Nat} : (⟨1, ![n]⟩ : Shape).Idx ≃ Fin n where
  toFun i := i 0
  invFun k := ix1 k
  left_inv i := (eq_ix1 i).symm
  right_inv _ := rfl

/-- so a sum over a vector's indices is the sum over its coordinates. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]; rfl

/-- Entry k of the vector the host sums: the [72,128] array is regrouped as [9,8,128], entry (0,0) of each of the nine
    groups is kept, and the nine kept entries are laid out as a vector; so entry k is the array's entry (8k, 0). -/
theorem tail_term (W : S72x128.Idx → EReal) (k : Fin 9) :
    shapeCast S9 (extractStridedSlice S9x1x1 ![0, 0, 0] (shapeCast S9x8x128 W shapeCasts_S72x128_S9x8x128)
        slices_S9x8x128_S9x1x1_0_0_0) shapeCasts_S9x1x1_S9 (ix1 k)
      = W (ix2 (⟨k.val * 8, by have := k.isLt; omega⟩ : Fin 72) (0 : Fin 128)) := by
  refine (shapeCast_apply _ _ _ (ix3 k (0 : Fin 1) (0 : Fin 1)) ?_).trans ?_
  · rw [Shape.rowMajor_val_three, Shape.rowMajor_val_one]
    show (k.val * 1 + 0) * 1 + 0 = k.val
    omega
  refine (extractStridedSlice_apply _ _ _ _ (ix3 k (0 : Fin 8) (0 : Fin 128)) (fun a => ?_)).trans ?_
  · match a with
    | ⟨0, _⟩ => show k.val = 0 + k.val; omega
    | ⟨1, _⟩ => show 0 = 0 + 0; rfl
    | ⟨2, _⟩ => show 0 = 0 + 0; rfl
  refine shapeCast_apply _ _ _ _ ?_
  rw [Shape.rowMajor_val_two, Shape.rowMajor_val_three]
  show k.val * 8 * 128 + 0 = (k.val * 8 + 0) * 128 + 0
  omega

/-- The result after the host operations: the constant 0 plus the sum over the nine points of entry (0,0) of the
    point's tile, times the constant word 0x37000000. -/
theorem tail6 (c : Dev nD) :
    Pipeline.afterTail₀ cfgs (dats m) 0 (V0 m) [hostOps1] c main_v6
      = fun _ => (Ideal.ofBits .f32 0x00000000#32 + ∑ t : Fin 9, out3 m c (Fin.cast N_0.symm t) (ix2 0 0))
          * Ideal.ofBits .f32 0x37000000#32 := by
  have hW : Pipeline.withArrays (cfgs 0).spec c (V0 m c) (fun w => (dats m 0 c).arrAt w (cfgs 0).N)
      (Proc.devRef .tc main_v1) = G m c :=
    (Pipeline.withArrays_arr spec0 launch0.win.arr_inj c _ _ 3).trans (final3 m c)
  unfold Pipeline.afterTail₀
  show StableHlo.after hostOps1 _ (Proc.devRef .tc main_v6) = _
  after_results
  rw [hW]
  funext j
  show Ideal.hostReduceAdd reducesTo_S9_S_d0
      (shapeCast S9 (extractStridedSlice S9x1x1 ![0, 0, 0] (shapeCast S9x8x128 (G m c) shapeCasts_S72x128_S9x8x128)
        slices_S9x8x128_S9x1x1_0_0_0) shapeCasts_S9x1x1_S9) (Ideal.ofBits .f32 0x00000000#32) j
      * Ideal.ofBits .f32 0x37000000#32 = _
  rw [Ideal.hostReduceAdd_total reducesTo_S9_S_d0 (fun b => b.elim0), sum_idx1]
  refine congrArg (· * _) (congrArg (_ + ·) (Finset.sum_congr rfl fun k _ => ?_))
  refine (tail_term _ k).trans ?_
  exact G_at m c (Fin.cast N_0.symm k) (ix2 0 0) _ (by show k.val * 8 = k.val * 8 + 0; omega) rfl

/-! ## The run, read at the result -/

/-- From a run whose post states each window's array and every other buffer: the result holds the value above, and
    the three arguments are as launched. -/
theorem value_of_run (ρ : Dev nD → PrngReg)
    (h : θ_run defs (onTc (τ := τ) (main (F := Ideal))) (s₀ m ρ)
      (Pipeline.FramePost cfgs (dats m) 0 (Pipeline.afterTail₀ cfgs (dats m) 0 (V0 m) [hostOps1]))) :
    θ_run defs (onTc (τ := τ) (main (F := Ideal))) ⟨m, fun _ => 0, ρ⟩ (fun r => ∀ c : Dev nD,
      r.2.mem ((c.tc : Thread nD τ).loc main_v6)
        = (fun _ => (Ideal.ofBits .f32 0x00000000#32 + ∑ t : Fin 9, out3 m c (Fin.cast N_0.symm t) (ix2 0 0))
            * Ideal.ofBits .f32 0x37000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (tail6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans
        (W_main_arg2 m (dats m) c)⟩) h

end Cert.ReferenceIdeal.RefFinal

end
-- ==== Proof.Rows.lean ====
/-
  Rows of the argument arrays by number.

  Row r's label and row r's squared distance, read off the argument arrays for any natural r (the number taken
  modulo 65536, which changes nothing below 65536).
-/
import proofs.«138735_g2000500922530033_pallasbulk_741_21_alg».proof.Proof.RowLoss

noncomputable section

namespace Cert.Rows

open Cert.RowLoss Idealize.ShloMosaic Idealize.ShloMosaic.ValueIdx

/-- Row number r as an index of the 65536 rows. -/
def rowIx (r : ℕ) : Fin 65536 := ⟨r % 65536, Nat.mod_lt _ (by decide)⟩

theorem rowIx_of_lt (r : ℕ) (h : r < 65536) : rowIx r = ⟨r, h⟩ := Fin.ext (Nat.mod_eq_of_lt h)

/-- Row r's label. -/
def Yof (y : (⟨1, ![65536]⟩ : Shape).Idx → EReal) (r : ℕ) : EReal := y (ix1 (rowIx r))

/-- Row r's squared distance. -/
def Dof (a0 a1 : (⟨2, ![65536, 256]⟩ : Shape).Idx → EReal) (r : ℕ) : EReal :=
  rowD (fun k => a0 (ix2 (rowIx r) k)) (fun k => a1 (ix2 (rowIx r) k))

/-- Real labels give real row labels. -/
theorem Yof_real (y : (⟨1, ![65536]⟩ : Shape).Idx → EReal) (hy : ∀ i, ∃ r : ℝ, y i = (r : EReal)) (r : ℕ) :
    ∃ v : ℝ, Yof y r = (v : EReal) := hy _

/-- Real embeddings give real nonnegative squared distances. -/
theorem Dof_real (a0 a1 : (⟨2, ![65536, 256]⟩ : Shape).Idx → EReal) (h0 : ∀ i, ∃ r : ℝ, a0 i = (r : EReal))
    (h1 : ∀ i, ∃ r : ℝ, a1 i = (r : EReal)) (r : ℕ) : ∃ d : ℝ, 0 ≤ d ∧ Dof a0 a1 r = (d : EReal) :=
  rowD_real _ _ (fun _ => h0 _) (fun _ => h1 _)

end Cert.Rows

end
-- ==== Proof.RefValue.lean ====
/-
  The reference kernel's stored tile as a sum over row numbers.

  At grid point t the reference holds rows 7864 t .. 7864 t + 7863 of the three arrays (past row 65535 the
  staging buffers are said to hold zeros) and stores, in every entry of its tile, the sum of those rows' losses;
  at the last point (8) a row whose number is 65536 or more counts as zero. Each row below 65536 reads the
  arrays at its own row number, so the stored entry is the sum, over the block's 7864 row numbers, of the
  row's loss when the number is below 65536 and zero otherwise — the same expression at every point.
-/
import proofs.«138735_g2000500922530033_pallasbulk_741_21_alg».proof.Proof.RefData
import proofs.«138735_g2000500922530033_pallasbulk_741_21_alg».proof.Proof.RefPay
import proofs.«138735_g2000500922530033_pallasbulk_741_21_alg».proof.Proof.LossMath
import proofs.«138735_g2000500922530033_pallasbulk_741_21_alg».proof.Proof.Rows

set_option maxRecDepth 16384

noncomputable section

open scoped BigOperators

namespace Cert.ReferenceIdeal.RefValue

open Cert.ReferenceIdeal Cert.ReferenceIdeal.Gen Cert.ReferenceIdeal.RefData Cert.ReferenceIdeal.RefPay Cert.RowLoss
open Idealize.ShloMosaic Idealize.ShloMosaic.TcCoe Idealize.ShloMosaic.ValueIdx Idealize.SL.Sem

variable (m : (ℓ : Loc nD τ sig) → Buf (Elt Ideal) ℓ)

/-- The body takes its masked branch at the last point only. -/
theorem cond1_iff : ∀ t : Fin cfg0.N, k0_cond1 (grid0.coords t) = 1#1 ↔ t.val = 8 :=
  (by decide +kernel : ∀ t : Fin grid0.N, k0_cond1 (grid0.coords t) = 1#1 ↔ t.val = 8)

/-- The one grid axis' coordinate of point `t` is `t`. -/
theorem coords_val : ∀ t : Fin cfg0.N, ((grid0.coords t) 0).val = t.val :=
  (by decide +kernel : ∀ t : Fin grid0.N, ((grid0.coords t) 0).val = t.val)

/-- A row of the block at point `t` whose number `7864 t + r` is below 65536 has the loss of that row of the arrays. -/
theorem row_eq (c : Dev nD)
    (h0 : ∀ (t : Fin cfg0.N) (r : Fin 7864) (k : Fin 256) (h : 7864 * t.val + r.val < 65536),
      in0 m c t (ix2 r k) = m ((c.tc : Thread nD τ).loc main_arg0) (ix2 ⟨7864 * t.val + r.val, h⟩ k))
    (h1 : ∀ (t : Fin cfg0.N) (r : Fin 7864) (k : Fin 256) (h : 7864 * t.val + r.val < 65536),
      in1 m c t (ix2 r k) = m ((c.tc : Thread nD τ).loc main_arg1) (ix2 ⟨7864 * t.val + r.val, h⟩ k))
    (h2 : ∀ (t : Fin cfg0.N) (r : Fin 7864) (z : Fin 1) (h : 7864 * t.val + r.val < 65536),
      in2 m c t (ix2 r z) = m ((c.tc : Thread nD τ).loc main_arg2) (ix1 ⟨7864 * t.val + r.val, h⟩))
    (t : Fin cfg0.N) (r : Fin 7864) (hr : 7864 * t.val + r.val < 65536) :
    rowLoss (in2 m c t (ix2 r 0)) (bD (in0 m c t) (in1 m c t) r)
      = rowLoss (Cert.Rows.Yof (m ((c.tc : Thread nD τ).loc main_arg2)) (7864 * t.val + r.val))
          (Cert.Rows.Dof (m ((c.tc : Thread nD τ).loc main_arg0)) (m ((c.tc : Thread nD τ).loc main_arg1)) (7864 * t.val + r.val)) := by
  rw [h2 t r 0 hr]
  unfold bD Cert.Rows.Dof Cert.Rows.Yof
  simp only [h0 t r _ hr, h1 t r _ hr, Cert.Rows.rowIx_of_lt _ hr]

/-- The stored tile's entry (0,0) at point `t` is the sum over the block's row numbers of the rows' losses, a row
    number from 65536 on counting as zero. -/
theorem out3_eq (c : Dev nD)
    (h0 : ∀ (t : Fin cfg0.N) (r : Fin 7864) (k : Fin 256) (h : 7864 * t.val + r.val < 65536),
      in0 m c t (ix2 r k) = m ((c.tc : Thread nD τ).loc main_arg0) (ix2 ⟨7864 * t.val + r.val, h⟩ k))
    (h1 : ∀ (t : Fin cfg0.N) (r : Fin 7864) (k : Fin 256) (h : 7864 * t.val + r.val < 65536),
      in1 m c t (ix2 r k) = m ((c.tc : Thread nD τ).loc main_arg1) (ix2 ⟨7864 * t.val + r.val, h⟩ k))
    (h2 : ∀ (t : Fin cfg0.N) (r : Fin 7864) (z : Fin 1) (h : 7864 * t.val + r.val < 65536),
      in2 m c t (ix2 r z) = m ((c.tc : Thread nD τ).loc main_arg2) (ix1 ⟨7864 * t.val + r.val, h⟩))
    (t : Fin cfg0.N) :
    out3 m c t (ix2 0 0)
      = Cert.LossMath.rPart (Cert.Rows.Yof (m ((c.tc : Thread nD τ).loc main_arg2)))
          (Cert.Rows.Dof (m ((c.tc : Thread nD τ).loc main_arg0)) (m ((c.tc : Thread nD τ).loc main_arg1))) t.val := by
  have hN : t.val < 9 := lt_of_lt_of_eq t.isLt N_0
  unfold out3
  by_cases h8 : t.val = 8
  · rw [if_pos ((cond1_iff t).mpr h8), pay2_apply, coords_val t]
    unfold Cert.LossMath.rPart
    refine Finset.sum_congr rfl fun r _ => ?_
    have hm : mask t.val r.val = 1#1 ↔ 7864 * t.val + r.val < 65536 := by rw [h8]; exact mask_last r
    rw [select_mask]
    by_cases hr : 7864 * t.val + r.val < 65536
    · rw [if_pos (hm.mpr hr), if_pos hr]
      exact row_eq m c h0 h1 h2 t r hr
    · rw [if_neg (mt hm.mp hr), if_neg hr]
  · rw [if_neg (mt (cond1_iff t).mp h8), pay3_apply]
    unfold Cert.LossMath.rPart
    refine Finset.sum_congr rfl fun r _ => ?_
    have hr : 7864 * t.val + r.val < 65536 := by have := r.isLt; omega
    rw [if_pos hr]
    exact row_eq m c h0 h1 h2 t r hr

end Cert.ReferenceIdeal.RefValue

end
-- ==== Proof.LibFinite.lean ====
/-
  Finiteness over the extended reals, part 1: the predicate and the pointwise operations.

  A float array read at the extended reals is FINITE when every entry is the image of a real number,
  equivalently when no entry is +∞ or -∞. Sums, differences, products and maxima of reals are reals, so the
  entrywise operations keep an array finite; a finite sum of reals is a real; a constant array is finite
  when its bit pattern denotes a real. The four patterns evaluated here denote 0, 1, 20000 and a positive
  real close to 10⁻⁵.
-/
import Idealize.ShloMosaic.PureOps.Ideal.Laws
import Idealize.ShloMosaic.Lib.ValueIdx

noncomputable section

open scoped BigOperators

namespace Cert.LibFinite

open Idealize.ShloMosaic

/-- Every entry of the array is (the image of) a real number. -/
def IsReal {S : Shape} (v : S.Idx → EReal) : Prop := ∀ i, ∃ r : ℝ, v i = (r : EReal)

/-! ### One extended real -/

/-- An extended real is a real exactly when it is neither infinity. -/
theorem real_iff_ne (x : EReal) : (∃ r : ℝ, x = (r : EReal)) ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

theorem real_of_ne {x : EReal} (ht : x ≠ ⊤) (hb : x ≠ ⊥) : ∃ r : ℝ, x = (r : EReal) :=
  (real_iff_ne x).mpr ⟨ht, hb⟩

theorem ne_top_of_real {x : EReal} (h : ∃ r : ℝ, x = (r : EReal)) : x ≠ ⊤ := ((real_iff_ne x).mp h).1

theorem ne_bot_of_real {x : EReal} (h : ∃ r : ℝ, x = (r : EReal)) : x ≠ ⊥ := ((real_iff_ne x).mp h).2

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  rcases max_choice x y with h | h <;> rw [h]
  · exact hx
  · exact hy

theorem real_zero : ∃ r : ℝ, (0 : EReal) = (r : EReal) := ⟨0, EReal.coe_zero.symm⟩

/-- A finite sum of reals is a real. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    rw [Finset.sum_insert ha]
    exact real_add (h a (Finset.mem_insert_self a s)) (ih fun i hi => h i (Finset.mem_insert_of_mem hi))

/-- A finite sum of nonnegative extended reals is nonnegative. -/
theorem sum_nonneg' {ι : Type} (s : Finset ι) (f : ι → EReal) (h : ∀ i ∈ s, 0 ≤ f i) : 0 ≤ ∑ i ∈ s, f i :=
  Finset.sum_nonneg h

/-! ### Arrays -/

variable {S : Shape} {φ : FTy}

theorem IsReal.ne_top {v : S.Idx → EReal} (h : IsReal v) (i : S.Idx) : v i ≠ ⊤ := ne_top_of_real (h i)

theorem IsReal.ne_bot {v : S.Idx → EReal} (h : IsReal v) (i : S.Idx) : v i ≠ ⊥ := ne_bot_of_real (h i)

theorem isReal_of_ne {v : S.Idx → EReal} (h : ∀ i, v i ≠ ⊤ ∧ v i ≠ ⊥) : IsReal v :=
  fun i => real_of_ne (h i).1 (h i).2

theorem isReal_iff_ne (v : S.Idx → EReal) : IsReal v ↔ ∀ i, v i ≠ ⊤ ∧ v i ≠ ⊥ :=
  forall_congr' fun i => real_iff_ne (v i)

/-- An array every entry of which is an entry of a finite array is finite. -/
theorem IsReal.of_entries {T : Shape} {inp : S.Idx → EReal} {out : T.Idx → EReal} (hin : IsReal inp)
    (h : ∀ i, ∃ j, out i = inp j) : IsReal out := fun i => by
  obtain ⟨j, hj⟩ := h i
  rw [hj]
  exact hin j

theorem isReal_addf {x y : FVec Ideal S φ} (hx : IsReal x) (hy : IsReal y) : IsReal (addf x y) :=
  fun i => real_add (hx i) (hy i)

theorem isReal_subf {x y : FVec Ideal S φ} (hx : IsReal x) (hy : IsReal y) : IsReal (subf x y) :=
  fun i => real_sub (hx i) (hy i)

theorem isReal_mulf {x y : FVec Ideal S φ} (hx : IsReal x) (hy : IsReal y) : IsReal (mulf x y) :=
  fun i => real_mul (hx i) (hy i)

theorem isReal_maximumf {x y : FVec Ideal S φ} (hx : IsReal x) (hy : IsReal y) : IsReal (maximumf x y) :=
  fun i => real_max (hx i) (hy i)

/-- The entrywise maximum is above its second argument (and above its first). -/
theorem le_maximumf_right (x y : FVec Ideal S φ) (i : S.Idx) : y i ≤ maximumf x y i := le_max_right (x i) (y i)

theorem le_maximumf_left (x y : FVec Ideal S φ) (i : S.Idx) : x i ≤ maximumf x y i := le_max_left (x i) (y i)

/-- A constant array is finite when its pattern denotes a real. -/
theorem isReal_constant (S : Shape) (φ : FTy) (w : BitVec φ.bits) (h : ∃ r : ℝ, Ideal.ofBits φ w = (r : EReal)) :
    IsReal (constant (F := Ideal) S φ w) := fun _ => h

theorem constant_apply (S : Shape) (φ : FTy) (w : BitVec φ.bits) (i : S.Idx) :
    constant (F := Ideal) S φ w i = Ideal.ofBits φ w := rfl

/-! ### Four patterns -/

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_20000 : Ideal.ofBits .f32 0x469C4000#32 = ((20000 : ℝ) : EReal) := by
  simp [Ideal.ofBits, Ideal.ieee, -EReal.coe_mul]; norm_num

/-- The pattern of the float nearest 10⁻⁵ denotes a positive real. -/
theorem ofBits_eps : ∃ e : ℝ, 0 < e ∧ Ideal.ofBits .f32 0x3727C5AC#32 = (e : EReal) := by
  refine ⟨(2 ^ 23 + 2606508 : ℕ) * (2 : ℝ) ^ ((110 : ℤ) - (2 ^ (8 - 1) - 1) - 23), by positivity, ?_⟩
  simp [Ideal.ofBits, Ideal.ieee, -EReal.coe_mul]

theorem isReal_constant_zero (S : Shape) : IsReal (constant (F := Ideal) S .f32 0x00000000#32) :=
  isReal_constant S .f32 _ ⟨0, ofBits_zero⟩

theorem isReal_constant_one (S : Shape) : IsReal (constant (F := Ideal) S .f32 0x3F800000#32) :=
  isReal_constant S .f32 _ ⟨1, ofBits_one⟩

theorem isReal_constant_20000 (S : Shape) : IsReal (constant (F := Ideal) S .f32 0x469C4000#32) :=
  isReal_constant S .f32 _ ⟨20000, ofBits_20000⟩

theorem isReal_constant_eps (S : Shape) : IsReal (constant (F := Ideal) S .f32 0x3727C5AC#32) := by
  obtain ⟨e, _, he⟩ := ofBits_eps
  exact isReal_constant S .f32 _ ⟨e, he⟩

end Cert.LibFinite

end
-- ==== Proof.Finite.lean ====
/-
  Finiteness of the arguments, from the precondition.

  The precondition says that the conjunction of three tests is true: for each argument array, that every entry's
  absolute value is below +∞. A conjunction of truth values is true only if each conjunct is; a conjunction over all
  entries of an array is true only at entries where the test is true; and an extended real x with max x (-x) < +∞
  is neither +∞ nor -∞, so it is a real number. Hence every entry of each argument array is a real number.
-/
import proofs.«138735_g2000500922530033_pallasbulk_741_21_alg».proof.Defs
import proofs.«138735_g2000500922530033_pallasbulk_741_21_alg».proof.Proof.Gen.Pre_finite_inputs
import proofs.«138735_g2000500922530033_pallasbulk_741_21_alg».proof.Proof.LibFinite
import Idealize.ShloMosaic.Lib.ReduceAll

noncomputable section

namespace Cert.Finite

open Idealize.ShloMosaic Idealize.SL.Sem

/-- The result of a reduction over every axis has one index. -/
instance : Subsingleton Cert.Pre_finite_inputs.S_.Idx := ⟨fun a b => funext fun d => d.elim0⟩

/-- The pattern the tests compare against denotes +∞. -/
theorem inf_eq_top : Ideal.ofBits .f32 0x7F800000#32 = (⊤ : EReal) := by simp [Ideal.ofBits, Ideal.ieee]

/-- An extended real whose absolute value tests below +∞ is a real number. -/
theorem real_of_test (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [inf_eq_top] at h
  have hlt : max x (-x) < ⊤ := by
    by_contra hn
    simp [Ideal.cmp, hn] at h
  induction x using EReal.rec with
  | bot => simp at hlt
  | coe r => exact ⟨r, rfl⟩
  | top => simp at hlt

/-- Under the precondition every entry of each argument array is a real number. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_test _ (Host.reduce_andi_all _ _ _ _ _ h0' i)
  · exact real_of_test _ (Host.reduce_andi_all _ _ _ _ _ h1 i)
  · exact real_of_test _ (Host.reduce_andi_all _ _ _ _ _ h2 i)

end Cert.Finite

end
-- ==== Proof.lean ====
/-
  The contrastive loss of 65536 pairs of 256-entry embeddings, computed two ways, and why the two results are one
  number.

  Per row r let D_r = Σ_k (x0[r,k] - x1[r,k])² be the squared distance and H_r = max(1 - √D_r, 0)² the squared hinge.
  The kernel walks sixteen blocks of 4096 rows; at each it adds Σ y_r·(D_r - H_r) + Σ H_r to a running value that
  starts at zero, and after the last block multiplies by 2⁻¹⁷. The reference walks nine blocks of 7864 rows (the
  ninth runs 5240 rows past the end; those rows count as zero), stores each block's Σ (y_r·D_r + (1 - y_r)·H_r),
  then adds the nine block sums from zero and multiplies by 2⁻¹⁷. Sums on the extended reals may be regrouped freely,
  so both are 2⁻¹⁷ times a sum over all rows; row by row  y·(D - H) + H = y·D + (1 - y)·H  because the inputs are
  finite, which makes y, D and H reals. The three frames are the programs' runs with the result dropped; the
  idealization rewrote nothing, so its statement is trivial.
-/
import proofs.«138735_g2000500922530033_pallasbulk_741_21_alg».proof.Defs
import proofs.«138735_g2000500922530033_pallasbulk_741_21_alg».proof.Proof.Gen.Kernel
import proofs.«138735_g2000500922530033_pallasbulk_741_21_alg».proof.Proof.Gen.Kernel.Frame
import proofs.«138735_g2000500922530033_pallasbulk_741_21_alg».proof.Proof.Gen.KernelIdeal
import proofs.«138735_g2000500922530033_pallasbulk_741_21_alg».proof.Proof.Gen.KernelIdeal.Frame
import proofs.«138735_g2000500922530033_pallasbulk_741_21_alg».proof.Proof.Gen.ReferenceIdeal
import proofs.«138735_g2000500922530033_pallasbulk_741_21_alg».proof.Proof.Gen.ReferenceIdeal.Frame
import proofs.«138735_g2000500922530033_pallasbulk_741_21_alg».proof.Proof.Gen.Pre_finite_inputs
import proofs.«138735_g2000500922530033_pallasbulk_741_21_alg».proof.Proof.KernelValue
import proofs.«138735_g2000500922530033_pallasbulk_741_21_alg».proof.Proof.KerSum
import proofs.«138735_g2000500922530033_pallasbulk_741_21_alg».proof.Proof.RefBody
import proofs.«138735_g2000500922530033_pallasbulk_741_21_alg».proof.Proof.RefFinal
import proofs.«138735_g2000500922530033_pallasbulk_741_21_alg».proof.Proof.RefRead
import proofs.«138735_g2000500922530033_pallasbulk_741_21_alg».proof.Proof.RefValue
import proofs.«138735_g2000500922530033_pallasbulk_741_21_alg».proof.Proof.Rows
import proofs.«138735_g2000500922530033_pallasbulk_741_21_alg».proof.Proof.LossMath
import proofs.«138735_g2000500922530033_pallasbulk_741_21_alg».proof.Proof.Finite
import Idealize.ShloMosaic.Adequacy
import Idealize.ShloMosaic.Init

set_option maxRecDepth 16384

noncomputable section

open scoped BigOperators

namespace Cert.Proof

open Idealize.ShloMosaic Idealize.SL.Sem Idealize.ShloMosaic.ValueIdx
open Cert.RowLoss Cert.LossMath Cert.Rows

/-- The two results are one number: both are 2⁻¹⁷ times (zero plus) the sum of the rows' losses. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (c : Dev Cert.KernelIdeal.nD)
    (e0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Ideal.ofBits .f32 0x00000000#32 + ∑ t : Fin 9, Cert.ReferenceIdeal.RefData.out3 m' c (Fin.cast Cert.ReferenceIdeal.Gen.N_0.symm t) (ix2 0 0))
        * Ideal.ofBits .f32 0x37000000#32
      = Cert.KernelIdeal.Gen.k0_pay3 (F := Ideal)
          (Cert.KernelIdeal.KVal.kacc (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) 15) (ix2 0 0) := by
  obtain ⟨hr0, hr1, hr2⟩ := Cert.Finite.args_real m hpre c
  have hY := fun r (_ : r < 65536) => Yof_real _ hr2 r
  have hD := fun r (_ : r < 65536) => Dof_real _ _ hr0 hr1 r
  rw [Cert.KernelIdeal.KerPay.pay3_apply,
    Cert.KernelIdeal.KerSum.closed (Yof (m ((c.tc : Thread Cert.KernelIdeal.nD Cert.KernelIdeal.τ).loc Cert.KernelIdeal.main_arg2)))
      (Dof (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.KernelIdeal.KVal.kacc _ _ _) (Cert.KernelIdeal.KVal.kblk _) (Cert.KernelIdeal.KVal.kblk _) (Cert.KernelIdeal.KVal.kyblk _)
      rfl (fun _ => rfl) (fun _ _ => rfl) (fun _ _ => rfl) (ix2 0 0) 15,
    totals_eq _ _ hY hD, Finset.sum_range]
  refine congrArg₂ _ (congrArg₂ _ rfl (Finset.sum_congr rfl fun t _ => ?_)) rfl
  rw [Cert.ReferenceIdeal.RefValue.out3_eq m' c (Cert.ReferenceIdeal.RefRead.in0_apply m' c) (Cert.ReferenceIdeal.RefRead.in1_apply m' c)
    (Cert.ReferenceIdeal.RefRead.in2_apply m' c), e0, e1, e2]
  rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.RefBody.frame m ρ

/-- Both idealized programs run; the kernel's scalar is the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KVal.run_value m ρ, ?_⟩
  refine (θ_run Cert.ReferenceIdeal.defs _ _).mono (fun r h c => ⟨(h c).1.trans ?_, (h c).2⟩)
    (Cert.ReferenceIdeal.RefFinal.value_of_run m' ρ' (Cert.ReferenceIdeal.RefBody.run_main m' ρ'))
  funext _
  exact value_eq m m' hpre c (hagree c).1 (hagree c).2.1 (hagree c).2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
